-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x1 : Shape := ⟨2, ![50000, 1]⟩
abbrev S800000 : Shape := ⟨1, ![800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg11 : FVec F S64 .f32) (main_arg12 : FVec F S64x64 .f32) (main_arg13 : FVec F S64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg8 : FVec F S64x128 .f32) (main_arg9 : FVec F S128 .f32) (main_arg10 : FVec F S128x64 .f32) (main_arg11 : FVec F S64 .f32) (main_arg12 : FVec F S64x64 .f32) (main_arg13 : FVec F S64 .f32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S64x128 .f32 := Host.absf main_arg8
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg10
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg11 main_arg12 main_arg13 main_v33

def fn {F : FTy → Type} [FloatOps F] (main_arg0 : FVec F S50000x64 .f32) (main_arg1 : FVec F S50000x64 .f32) (main_arg2 : FVec F S50000x1 .f32) (main_arg3 : FVec F S50000x1 .f32) (main_arg4 : IVec S800000 32) (main_arg5 : IVec S800000 32) (main_arg6 : IVec S800000 32) (main_arg7 : IVec S800000 32) (main_arg8 : FVec F S64x128 .f32) (main_arg9 : FVec F S128 .f32) (main_arg10 : FVec F S128x64 .f32) (main_arg11 : FVec F S64 .f32) (main_arg12 : FVec F S64x64 .f32) (main_arg13 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x1 .f32 := Host.absf main_arg2
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg8 main_arg9 main_arg10 main_arg11 main_arg12 main_arg13 main_v13 main_v16
-- ==== Kernel.lean ====
abbrev S50000x64 : Shape := ⟨2, ![50000, 64]⟩
abbrev S50000x1 : Shape := ⟨2, ![50000, 1]⟩
abbrev S800000 : Shape := ⟨1, ![800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S50000x128 : Shape := ⟨2, ![50000, 128]⟩
abbrev S5000x64 : Shape := ⟨2, ![5000, 64]⟩
abbrev S5000x1 : Shape := ⟨2, ![5000, 1]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S800000x64 : Shape := ⟨2, ![800000, 64]⟩
abbrev S1x64 : Shape := ⟨2, ![1, 64]⟩

abbrev nBuf : Space → Nat
  | .hbm => 58
  | .vmem => 38
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x1, .f32⟩
  | .hbm, ⟨3, _⟩ => ⟨S50000x1, .f32⟩
  | .hbm, ⟨4, _⟩ => ⟨S800000, .i32⟩
  | .hbm, ⟨5, _⟩ => ⟨S800000, .i32⟩
  | .hbm, ⟨6, _⟩ => ⟨S800000, .i32⟩
  | .hbm, ⟨7, _⟩ => ⟨S800000, .i32⟩
  | .hbm, ⟨8, _⟩ => ⟨S64x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S50000x64, .f32⟩
  | .hbm, ⟨15, _⟩ => ⟨S50000x128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x64, .f32⟩
  | .hbm, ⟨30, _⟩ => ⟨S50000x64, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x128, .f32⟩
  | .local _ .vmem, ⟨7, _⟩ => ⟨S5000x64, .f32⟩
  | .local _ .vmem, ⟨8, _⟩ => ⟨S5000x64, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S5000x1, .f32⟩
  | .local _ .vmem, ⟨18, _⟩ => ⟨S5000x1, .f32⟩
  | .local _ .vmem, ⟨19, _⟩ => ⟨S128, .f32⟩
  | .local _ .vmem, ⟨20, _⟩ => ⟨S128x64, .f32⟩
  | .local _ .vmem, ⟨21, _⟩ => ⟨S64x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x1, .f32⟩
  | .local _ .vmem, ⟨31, _⟩ => ⟨S5000x1, .f32⟩
  | .local _ .vmem, ⟨32, _⟩ => ⟨S5000x1, .f32⟩
  | .local _ .vmem, ⟨33, _⟩ => ⟨S5000x1, .f32⟩
  | .local _ .vmem, ⟨34, _⟩ => ⟨S64, .f32⟩
  | .local _ .vmem, ⟨35, _⟩ => ⟨S64, .f32⟩
  | .local _ .vmem, ⟨36, _⟩ => ⟨S5000x64, .f32⟩
  | .local _ .vmem, ⟨37, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg6_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem5_0 : DmaSem sig := 35
abbrev cc2_sem6_0 : DmaSem sig := 36
abbrev cc2_sem6_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S50000x64 : S_.BroadcastsInDim S50000x64 (![] : Fin 0 → Fin S50000x64.rank)
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S50000x64.size a
  hwx1_8 : ∀ i : grid1.Coords, EltTy.bits .f32 = 32 ∨ (Rect.block (s := S50000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11_0) S5000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v11_1) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v21) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x64 : Shape := ⟨2, ![50000, 64]⟩
abbrev S50000x1 : Shape := ⟨2, ![50000, 1]⟩
abbrev S800000 : Shape := ⟨1, ![800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S800000x64 : Shape := ⟨2, ![800000, 64]⟩
abbrev S1x64 : Shape := ⟨2, ![1, 64]⟩

abbrev nBuf : Space → Nat
  | .hbm => 90
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S50000x1, .f32⟩
  | .hbm, ⟨3, _⟩ => ⟨S50000x1, .f32⟩
  | .hbm, ⟨4, _⟩ => ⟨S800000, .i32⟩
  | .hbm, ⟨5, _⟩ => ⟨S800000, .i32⟩
  | .hbm, ⟨6, _⟩ => ⟨S800000, .i32⟩
  | .hbm, ⟨7, _⟩ => ⟨S800000, .i32⟩
  | .hbm, ⟨8, _⟩ => ⟨S64x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S50000x64, .f32⟩
  | .hbm, ⟨15, _⟩ => ⟨S50000x128, .f32⟩
  | .hbm, ⟨16, _⟩ => ⟨S50000x128, .f32⟩
  | .hbm, ⟨17, _⟩ => ⟨S50000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S50000x64, .f32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S50000x64, .f32⟩
  | .hbm, ⟨84, _⟩ => ⟨S_, .f32⟩
  | .hbm, ⟨85, _⟩ => ⟨S50000x64, .f32⟩
  | .hbm, ⟨86, _⟩ => ⟨S50000x64, .f32⟩
  | .hbm, ⟨87, _⟩ => ⟨S_, .f32⟩
  | .hbm, ⟨88, _⟩ => ⟨S50000x64, .f32⟩
  | .hbm, ⟨89, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_1 : Ref sig .tc := ⟨.hbm, 45, rfl⟩
abbrev main_v26 : Ref sig .tc := ⟨.hbm, 46, rfl⟩
abbrev main_v27 : Ref sig .tc := ⟨.hbm, 47, rfl⟩
abbrev main_c_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_4 : Ref sig .tc := ⟨.hbm, 63, rfl⟩
abbrev main_v41 : Ref sig .tc := ⟨.hbm, 64, rfl⟩
abbrev main_v42 : Ref sig .tc := ⟨.hbm, 65, rfl⟩
abbrev main_c_5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_7 : Ref sig .tc := ⟨.hbm, 84, rfl⟩
abbrev main_v59 : Ref sig .tc := ⟨.hbm, 85, rfl⟩
abbrev main_v60 : Ref sig .tc := ⟨.hbm, 86, rfl⟩
abbrev main_cst_8 : Ref sig .tc := ⟨.hbm, 87, rfl⟩
abbrev main_v61 : Ref sig .tc := ⟨.hbm, 88, rfl⟩
abbrev main_v62 : Ref sig .tc := ⟨.hbm, 89, rfl⟩

abbrev nD : Nat := 1
abbrev τ : Topo := Topo.v7x

variable {F : FTy → Type} [FloatOps F]

class Facts₀ : Prop where
  bcast_S50000x1_S50000x128_0_1 : S50000x1.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run, with every buffer after it named.

  The program is three kernel regions among two stretches of host operations. Its generated frame follows the
  buffers through the five segments — `Gen.W0` at launch, `Gen.W1` after the first region, `Gen.W2` after the
  first host stretch, …, `Gen.W5` after the last region — but its conclusion keeps only the argument arrays.
  Here the same run is concluded with the whole last valuation: after every weakly fair execution each unscoped
  buffer holds `Gen.W5 m ρ c` of it. The result array and the arguments are read off that.
-/
import proofs.«161620_j28681791603394_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of every
    core ends at the last valuation of the fold through the segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The same run, read at the result array and at the arguments: the result holds what the last valuation gives
    it, and each argument array is as launched (no host operation and no region writes one). -/
theorem run_value : θ_run defs (onTc (τ := τ) (main (F := F))) ⟨m, fun _ => 0, ρ⟩ (fun r => ∀ c : Dev nD,
      r.2.mem ((c.tc : Thread nD τ).loc main_v32) = W5 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v32 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c)⟩)
    (run_all m ρ)

end Cert.KernelIdeal.RunValue

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.Rows.lean ====
/-
  The three kernel bodies read one entry at a time, at the exact values.

  Each body works on a block of 5000 rows. Written for the entry in row `p` and column `j` of the block:
  * the masked features are `f(p,j) · mk(p,j)`;
  * the first layer is `(∑ k, (f(p,k) · mk(p,k)) · W(k,j)) · n(p)`: a product rows by columns, then the row's scale;
  * the second layer is `(∑ k, max (a(p,k) · n(p) + b(k)) 0 · W(k,j)) · n'(p)`;
  * the skip branch is `(∑ k, x(p,k) · W(k,j)) · n(p)`;
  * the output is the logistic function of `(a(p,j) · n(p) + b(j)) + (a'(p,j) · n'(p) + b'(j))`.
  A change of float format is the identity at the exact values, and a matrix unit's product into the zero
  accumulator is the sum over the contracted index, whatever its order.
-/
import proofs.«161620_j28681791603394_1_alg».proof.Proof.Gen.KernelIdeal.Skeleton
import proofs.«161620_j28681791603394_1_alg».proof.Proof.LibPlainProduct
import proofs.«161620_j28681791603394_1_alg».proof.Proof.LibLayout
import Idealize.ShloMosaic.Lib.ValueLayout

noncomputable section

open scoped BigOperators

namespace Cert.KernelIdeal.Rows

open Cert.KernelIdeal Cert.KernelIdeal.Gen
open Idealize.ShloMosaic Idealize.ShloMosaic.ValueIdx Idealize.ShloMosaic.PlainProduct Cert.LibLayout

/-- The masked features at `(p, j)`. -/
theorem masked_apply (v0 v1 : Vec Ideal S5000x64 .f32) (p : Fin 5000) (j : Fin 64) :
    k0_pay1 (F := Ideal) v0 v1 (ix2 p j) = v0 (ix2 p j) * v1 (ix2 p j) := rfl

/-- The first layer at `(p, j)`: the masked row `p` against column `j` of the weights, scaled by the row's norm. -/
theorem layer1_apply (v0 v1 : Vec Ideal S5000x64 .f32) (v5 : Vec Ideal S64x128 .f32) (v8 : Vec Ideal S5000x1 .f32)
    (p : Fin 5000) (j : Fin 128) :
    k0_pay2 (F := Ideal) v0 v1 v5 v8 (ix2 p j)
      = (∑ k : Fin 64, (v0 (ix2 p k) * v1 (ix2 p k)) * v5 (ix2 k j)) * v8 (ix2 p (0 : Fin 1)) := by
  show (FloatOps.matmul (F := Ideal) (φ₁ := .bf16) (φ₂ := .bf16) (DotDims.plain 5000 64 128) none (mulf (F := Ideal) (φ := .f32) v0 v1) v5 (constant ⟨2, ![5000, 128]⟩ .f32 0x00000000#32)) (ix2 p j)
      * (broadcastTo S5000x128 v8 broadcasts_S5000x1_S5000x128) (ix2 p j) = _
  rw [matmul_zero_plain, broadcastTo_a1_ab_apply]
  rfl

/-- The hidden activation of the second kernel: the aggregated first layer scaled by the row's norm, the bias
    added, then the maximum with zero. -/
def hidden (v0 : Vec Ideal S5000x128 .f32) (v2 : Vec Ideal S5000x1 .f32) (v5 : Vec Ideal S128 .f32) : FVec Ideal S5000x128 .f32 :=
  maximumf (F := Ideal) (φ := .f32)
    (addf (mulf (shapeCast S5000x128 v0 shapeCasts_S5000x128_S5000x128) (broadcastTo S5000x128 v2 broadcasts_S5000x1_S5000x128))
      (broadcastTo S5000x128 (shapeCast S1x128 v5 shapeCasts_S128_S1x128) broadcasts_S1x128_S5000x128))
    (broadcast S5000x128 (Scalar.ofBits (F := Ideal) .f32 0x00000000#32))

/-- The hidden activation at `(p, k)`. -/
theorem hidden_apply (v0 : Vec Ideal S5000x128 .f32) (v2 : Vec Ideal S5000x1 .f32) (v5 : Vec Ideal S128 .f32)
    (p : Fin 5000) (k : Fin 128) :
    hidden v0 v2 v5 (ix2 p k)
      = max (v0 (ix2 p k) * v2 (ix2 p (0 : Fin 1)) + v5 (ix1 k)) (Ideal.ofBits .f32 0x00000000#32) := by
  show max ((shapeCast S5000x128 v0 shapeCasts_S5000x128_S5000x128) (ix2 p k)
        * (broadcastTo S5000x128 v2 broadcasts_S5000x1_S5000x128) (ix2 p k)
      + (broadcastTo S5000x128 (shapeCast S1x128 v5 shapeCasts_S128_S1x128) broadcasts_S1x128_S5000x128) (ix2 p k))
      (Ideal.ofBits .f32 0x00000000#32) = _
  rw [shapeCast_self, broadcastTo_a1_ab_apply, broadcastTo_1b_ab_apply, shapeCast_a_1a_apply]

/-- The second layer at `(p, j)`: the hidden row `p` against column `j` of the weights, scaled by the row's norm. -/
theorem layer2_apply (v0 : Vec Ideal S5000x128 .f32) (v2 : Vec Ideal S5000x1 .f32) (v5 : Vec Ideal S128 .f32)
    (v12 : Vec Ideal S128x64 .f32) (v15 : Vec Ideal S5000x1 .f32) (p : Fin 5000) (j : Fin 64) :
    k1_pay1 (F := Ideal) v0 v2 v5 v12 v15 (ix2 p j)
      = (∑ k : Fin 128, max (v0 (ix2 p k) * v2 (ix2 p (0 : Fin 1)) + v5 (ix1 k)) (Ideal.ofBits .f32 0x00000000#32) * v12 (ix2 k j))
          * v15 (ix2 p (0 : Fin 1)) := by
  show (FloatOps.matmul (F := Ideal) (φ₁ := .bf16) (φ₂ := .bf16) (DotDims.plain 5000 128 64) none (hidden v0 v2 v5) v12 (constant ⟨2, ![5000, 64]⟩ .f32 0x00000000#32)) (ix2 p j)
      * (broadcastTo S5000x64 v15 broadcasts_S5000x1_S5000x64) (ix2 p j) = _
  rw [matmul_zero_plain, broadcastTo_a1_ab_apply, rowsByCols_apply]
  exact congrArg (· * v15 (ix2 p (0 : Fin 1))) (Finset.sum_congr rfl fun k _ => congrArg (· * v12 (ix2 k j)) (hidden_apply v0 v2 v5 p k))

/-- The skip branch at `(p, j)`: the masked row `p` against column `j` of the weights, scaled by the row's norm. -/
theorem skip_apply (v18 : Vec Ideal S5000x64 .f32) (v21 : Vec Ideal S64x64 .f32) (v24 : Vec Ideal S5000x1 .f32)
    (p : Fin 5000) (j : Fin 64) :
    k1_pay2 (F := Ideal) v18 v21 v24 (ix2 p j)
      = (∑ k : Fin 64, v18 (ix2 p k) * v21 (ix2 k j)) * v24 (ix2 p (0 : Fin 1)) := by
  show (FloatOps.matmul (F := Ideal) (φ₁ := .bf16) (φ₂ := .bf16) (DotDims.plain 5000 64 64) none (shapeCast S5000x64 v18 shapeCasts_S5000x64_S5000x64) v21 (constant ⟨2, ![5000, 64]⟩ .f32 0x00000000#32)) (ix2 p j)
      * (broadcastTo S5000x64 v24 broadcasts_S5000x1_S5000x64) (ix2 p j) = _
  rw [matmul_zero_plain, broadcastTo_a1_ab_apply, shapeCast_self]
  rfl

/-- The output at `(p, j)`: the logistic function of the two aggregated branches, each scaled by its row's norm
    and shifted by its bias. -/
theorem output_apply (v0 : Vec Ideal S5000x64 .f32) (v2 : Vec Ideal S5000x1 .f32) (v5 : Vec Ideal S64 .f32)
    (v9 : Vec Ideal S5000x64 .f32) (v11 : Vec Ideal S5000x1 .f32) (v14 : Vec Ideal S64 .f32) (p : Fin 5000) (j : Fin 64) :
    k2_pay1 (F := Ideal) v0 v2 v5 v9 v11 v14 (ix2 p j)
      = Ideal.logistic ((v0 (ix2 p j) * v2 (ix2 p (0 : Fin 1)) + v5 (ix1 j)) + (v9 (ix2 p j) * v11 (ix2 p (0 : Fin 1)) + v14 (ix1 j))) := by
  show Ideal.logistic
      (((shapeCast S5000x64 v0 shapeCasts_S5000x64_S5000x64) (ix2 p j) * (broadcastTo S5000x64 v2 broadcasts_S5000x1_S5000x64) (ix2 p j)
          + (broadcastTo S5000x64 (shapeCast S1x64 v5 shapeCasts_S64_S1x64) broadcasts_S1x64_S5000x64) (ix2 p j))
        + ((shapeCast S5000x64 v9 shapeCasts_S5000x64_S5000x64) (ix2 p j) * (broadcastTo S5000x64 v11 broadcasts_S5000x1_S5000x64) (ix2 p j)
          + (broadcastTo S5000x64 (shapeCast S1x64 v14 shapeCasts_S64_S1x64) broadcasts_S1x64_S5000x64) (ix2 p j))) = _
  rw [shapeCast_self, shapeCast_self, broadcastTo_a1_ab_apply, broadcastTo_a1_ab_apply, broadcastTo_1b_ab_apply,
    broadcastTo_1b_ab_apply, shapeCast_a_1a_apply, shapeCast_a_1a_apply]

end Cert.KernelIdeal.Rows

end
-- ==== Proof.RefRows.lean ====
/-
  The reference's stages read one entry at a time, at the exact values.

  The reference computes on whole arrays of 50000 rows. Written for the entry in row `r` and column `j`:
  * the first layer is `(∑ k, (f(r,k) · mk(r,k)) · W1(k,j)) · ng(r)`;
  * with `A1` the first aggregation, the second layer is `(∑ k, max (A1(r,k) · ng(r) + b1(k)) 0 · Wh(k,j)) · ng(r)`;
  * the skip branch is `(∑ k, (f(r,k) · mk(r,k)) · Ws(k,j)) · nf(r)`;
  * with `A2`, `A3` the two later aggregations, the result is `1 / (1 + exp (-s))` for
    `s = (A2(r,j) · ng(r) + bh(j)) + (A3(r,j) · nf(r) + bs(j))`, which is the logistic function of `s`.
  The aggregations (a gather of rows followed by a scatter-add) are never opened: they enter as the arrays they are.
-/
import proofs.«161620_j28681791603394_1_alg».proof.Proof.Gen.ReferenceIdeal.Read

noncomputable section

open scoped BigOperators

namespace Cert.ReferenceIdeal.RefRows

open Cert.ReferenceIdeal Cert.ReferenceIdeal.Read
open Idealize.ShloMosaic Idealize.ShloMosaic.ValueIdx

/-- The word of `1.0` is the real number one. -/
theorem ofBits_one : Ideal.ofBits .f32 0x3F800000#32 = (1 : EReal) := by
  simp [Ideal.ofBits, Ideal.ieee, -EReal.coe_mul]; norm_num

/-- The first layer at `(r, j)`. -/
theorem layer1_ref (x0 x1 : (⟨S50000x64, .f32⟩ : BufTy).Contents (Elt Ideal)) (x2 : (⟨S50000x1, .f32⟩ : BufTy).Contents (Elt Ideal)) (x8 : (⟨S64x128, .f32⟩ : BufTy).Contents (Elt Ideal))
    (r : Fin 50000) (j : Fin 128) :
    val_main_v3 (F := Ideal) x0 x1 x2 x8 (ix2 r j)
      = (∑ k : Fin 64, (x0 (ix2 r k) * x1 (ix2 r k)) * x8 (ix2 k j)) * x2 (ix2 r (0 : Fin 1)) := by
  have el : ∀ k : Fin 64, lidx_main_v1 (ix2 r j) k = ix2 r k := fun k => funext fun a => Fin.ext (by match a with | ⟨0, _⟩ => rfl | ⟨1, _⟩ => rfl)
  have er : ∀ k : Fin 64, ridx_main_v1 (ix2 r j) k = ix2 k j := fun k => funext fun a => Fin.ext (by match a with | ⟨0, _⟩ => rfl | ⟨1, _⟩ => rfl)
  have en : idx_main_v2 (ix2 r j) = ix2 r (0 : Fin 1) := funext fun a => Fin.ext (by match a with | ⟨0, _⟩ => rfl | ⟨1, _⟩ => rfl)
  rw [val_main_v3_apply, val_main_v1_apply, val_main_v2_apply]
  simp only [el, er, en, val_main_v0_apply, Ideal.mulf_def]

/-- The second layer at `(r, j)`, over the first aggregation as it stands. -/
theorem layer2_ref (x0 x1 : (⟨S50000x64, .f32⟩ : BufTy).Contents (Elt Ideal)) (x2 : (⟨S50000x1, .f32⟩ : BufTy).Contents (Elt Ideal)) (x4 x5 : (⟨S800000, .i32⟩ : BufTy).Contents (Elt Ideal)) (x8 : (⟨S64x128, .f32⟩ : BufTy).Contents (Elt Ideal)) (x9 : (⟨S128, .f32⟩ : BufTy).Contents (Elt Ideal)) (x10 : (⟨S128x64, .f32⟩ : BufTy).Contents (Elt Ideal))
    (r : Fin 50000) (j : Fin 64) :
    val_main_v22 (F := Ideal) x0 x1 x2 x4 x5 x8 x9 x10 (ix2 r j)
      = (∑ k : Fin 128, max (val_main_v13 (F := Ideal) x0 x1 x2 x4 x5 x8 (ix2 r k) * x2 (ix2 r (0 : Fin 1)) + x9 (ix1 k)) (Ideal.ofBits .f32 0x00000000#32)
            * x10 (ix2 k j)) * x2 (ix2 r (0 : Fin 1)) := by
  have el : ∀ k : Fin 128, lidx_main_v20 (ix2 r j) k = ix2 r k := fun k => funext fun a => Fin.ext (by match a with | ⟨0, _⟩ => rfl | ⟨1, _⟩ => rfl)
  have er : ∀ k : Fin 128, ridx_main_v20 (ix2 r j) k = ix2 k j := fun k => funext fun a => Fin.ext (by match a with | ⟨0, _⟩ => rfl | ⟨1, _⟩ => rfl)
  have en : idx_main_v21 (ix2 r j) = ix2 r (0 : Fin 1) := funext fun a => Fin.ext (by match a with | ⟨0, _⟩ => rfl | ⟨1, _⟩ => rfl)
  have en' : ∀ k : Fin 128, idx_main_v14 (ix2 r k) = ix2 r (0 : Fin 1) := fun k => funext fun a => Fin.ext (by match a with | ⟨0, _⟩ => rfl | ⟨1, _⟩ => rfl)
  have eb : ∀ k : Fin 128, idx_main_v16 (idx_main_v17 (ix2 r k)) = ix1 k := fun k => funext fun a => Fin.ext (by match a with | ⟨0, _⟩ => rfl)
  rw [val_main_v22_apply, val_main_v20_apply, val_main_v21_apply, en]
  refine congrArg (· * x2 (ix2 r (0 : Fin 1))) (Finset.sum_congr rfl fun k _ => ?_)
  rw [el k, er k, val_main_v19_apply, val_main_v18_apply, val_main_v15_apply, val_main_v14_apply, val_main_v17_apply,
    val_main_v16_apply, val_main_call0_v0_apply, val_main_call0_cst_apply, en' k, eb k]
  generalize val_main_v13 (F := Ideal) x0 x1 x2 x4 x5 x8 (ix2 r k) = a
  rfl

/-- The skip branch at `(r, j)`. -/
theorem skip_ref (x0 x1 : (⟨S50000x64, .f32⟩ : BufTy).Contents (Elt Ideal)) (x3 : (⟨S50000x1, .f32⟩ : BufTy).Contents (Elt Ideal)) (x12 : (⟨S64x64, .f32⟩ : BufTy).Contents (Elt Ideal)) (r : Fin 50000) (j : Fin 64) :
    val_main_v25 (F := Ideal) x0 x1 x3 x12 (ix2 r j)
      = (∑ k : Fin 64, (x0 (ix2 r k) * x1 (ix2 r k)) * x12 (ix2 k j)) * x3 (ix2 r (0 : Fin 1)) := by
  have el : ∀ k : Fin 64, lidx_main_v23 (ix2 r j) k = ix2 r k := fun k => funext fun a => Fin.ext (by match a with | ⟨0, _⟩ => rfl | ⟨1, _⟩ => rfl)
  have er : ∀ k : Fin 64, ridx_main_v23 (ix2 r j) k = ix2 k j := fun k => funext fun a => Fin.ext (by match a with | ⟨0, _⟩ => rfl | ⟨1, _⟩ => rfl)
  have en : idx_main_v24 (ix2 r j) = ix2 r (0 : Fin 1) := funext fun a => Fin.ext (by match a with | ⟨0, _⟩ => rfl | ⟨1, _⟩ => rfl)
  rw [val_main_v25_apply, val_main_v23_apply, val_main_v24_apply]
  simp only [el, er, en, val_main_v0_apply, Ideal.mulf_def]

/-- The quotient the host spells for the logistic function is that function, on every extended real. -/
theorem logistic_spelled (s : EReal) :
    FloatOps.hostDivf (F := Ideal) (φ := .f32) (1 : EReal)
      (FloatOps.addf (F := Ideal) (φ := .f32) (1 : EReal) (FloatOps.hostUnary (F := Ideal) (φ := .f32) .exp (FloatOps.hostNegf (F := Ideal) (φ := .f32) s)))
      = Ideal.logistic s := rfl

/-- The result at `(r, j)`, over the two later aggregations as they stand: the quotient `1 / (1 + exp (-s))` the
    reference spells is the logistic function of `s`. -/
theorem output_ref (x0 x1 : (⟨S50000x64, .f32⟩ : BufTy).Contents (Elt Ideal)) (x2 x3 : (⟨S50000x1, .f32⟩ : BufTy).Contents (Elt Ideal)) (x4 x5 x6 x7 : (⟨S800000, .i32⟩ : BufTy).Contents (Elt Ideal)) (x8 : (⟨S64x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal))
    (r : Fin 50000) (j : Fin 64) :
    val_main_v62 (F := Ideal) x0 x1 x2 x3 x4 x5 x6 x7 x8 x9 x10 x11 x12 x13 (ix2 r j)
      = Ideal.logistic ((val_main_v35 (F := Ideal) x0 x1 x2 x4 x5 x8 x9 x10 (ix2 r j) * x2 (ix2 r (0 : Fin 1)) + x11 (ix1 j))
          + (val_main_v50 (F := Ideal) x0 x1 x3 x6 x7 x12 (ix2 r j) * x3 (ix2 r (0 : Fin 1)) + x13 (ix1 j))) := by
  have eg : idx_main_v36 (ix2 r j) = ix2 r (0 : Fin 1) := funext fun a => Fin.ext (by match a with | ⟨0, _⟩ => rfl | ⟨1, _⟩ => rfl)
  have ef : idx_main_v51 (ix2 r j) = ix2 r (0 : Fin 1) := funext fun a => Fin.ext (by match a with | ⟨0, _⟩ => rfl | ⟨1, _⟩ => rfl)
  have eh : idx_main_v38 (idx_main_v39 (ix2 r j)) = ix1 j := funext fun a => Fin.ext (by match a with | ⟨0, _⟩ => rfl)
  have es : idx_main_v53 (idx_main_v54 (ix2 r j)) = ix1 j := funext fun a => Fin.ext (by match a with | ⟨0, _⟩ => rfl)
  rw [val_main_v62_apply, val_main_v61_apply, val_main_cst_8_apply, val_main_v60_apply, val_main_v59_apply, val_main_cst_7_apply,
    val_main_v58_apply, val_main_v57_apply, val_main_v56_apply, val_main_v40_apply, val_main_v55_apply, val_main_v37_apply,
    val_main_v52_apply, val_main_v36_apply, val_main_v51_apply, val_main_v39_apply, val_main_v38_apply, val_main_v54_apply,
    val_main_v53_apply, eg, ef, eh, es]
  generalize val_main_v35 (F := Ideal) x0 x1 x2 x4 x5 x8 x9 x10 (ix2 r j) = a
  generalize val_main_v50 (F := Ideal) x0 x1 x3 x6 x7 x12 (ix2 r j) = b
  rw [Ideal.ofBits_def, ofBits_one]
  exact logistic_spelled _

end Cert.ReferenceIdeal.RefRows

end
-- ==== Proof.Blocks.lean ====
/-
  One block of rows of each kernel stage is the same rows of the reference's stage.

  A kernel body sees rows `b · 5000 … b · 5000 + 4999` of its row-blocked operands (`b` the grid point) and the
  whole of its weights and biases. Each entry of a stage depends on its own row of the row-blocked operands only, so
  the entry `(p, j)` a body computes from the block is the entry `(b · 5000 + p, j)` the reference computes from the
  whole arrays: the same products summed over the same contraction index, the same row scale, the same bias.
  The hypotheses say that a block operand is those rows of its array; the conclusion is read at any pair of a
  block index and an array index in that correspondence.
-/
import proofs.«161620_j28681791603394_1_alg».proof.Proof.Rows
import proofs.«161620_j28681791603394_1_alg».proof.Proof.RefRows

noncomputable section

open scoped BigOperators

namespace Cert.KernelIdeal.Blocks

open Cert.KernelIdeal Cert.KernelIdeal.Gen Cert.KernelIdeal.Rows
open Cert.ReferenceIdeal.Read (val_main_v0 val_main_v3 val_main_v13 val_main_v22 val_main_v25 val_main_v35 val_main_v50 val_main_v62)
open Cert.ReferenceIdeal.RefRows
open Idealize.ShloMosaic Idealize.ShloMosaic.ValueIdx

/-- The masked features: block entry `(p, j)` is array entry `(b · 5000 + p, j)`. -/
theorem masked_block (X0 X1 : (⟨S50000x64, .f32⟩ : BufTy).Contents (Elt Ideal)) (v0 v1 : Vec Ideal S5000x64 .f32) (b : ℕ)
    (h0 : ∀ (y : S5000x64.Idx) (i : S50000x64.Idx), (i 0).val = b * 5000 + (y 0).val → (i 1).val = (y 1).val → v0 y = X0 i)
    (h1 : ∀ (y : S5000x64.Idx) (i : S50000x64.Idx), (i 0).val = b * 5000 + (y 0).val → (i 1).val = (y 1).val → v1 y = X1 i)
    (y : S5000x64.Idx) (i : S50000x64.Idx) (e0 : (i 0).val = b * 5000 + (y 0).val) (e1 : (i 1).val = (y 1).val) :
    k0_pay1 (F := Ideal) v0 v1 y = val_main_v0 (F := Ideal) X0 X1 i := by
  show v0 y * v1 y = X0 i * X1 i
  rw [h0 y i e0 e1, h1 y i e0 e1]

/-- The first layer: block entry `(p, j)` is array entry `(b · 5000 + p, j)`. -/
theorem layer1_block (X0 X1 : (⟨S50000x64, .f32⟩ : BufTy).Contents (Elt Ideal)) (X2 : (⟨S50000x1, .f32⟩ : BufTy).Contents (Elt Ideal)) (X8 : (⟨S64x128, .f32⟩ : BufTy).Contents (Elt Ideal))
    (v0 v1 : Vec Ideal S5000x64 .f32) (v5 : Vec Ideal S64x128 .f32) (v8 : Vec Ideal S5000x1 .f32) (b : ℕ)
    (h0 : ∀ (y : S5000x64.Idx) (i : S50000x64.Idx), (i 0).val = b * 5000 + (y 0).val → (i 1).val = (y 1).val → v0 y = X0 i)
    (h1 : ∀ (y : S5000x64.Idx) (i : S50000x64.Idx), (i 0).val = b * 5000 + (y 0).val → (i 1).val = (y 1).val → v1 y = X1 i)
    (h5 : v5 = X8)
    (h8 : ∀ (y : S5000x1.Idx) (i : S50000x1.Idx), (i 0).val = b * 5000 + (y 0).val → (i 1).val = (y 1).val → v8 y = X2 i)
    (y : S5000x128.Idx) (i : S50000x128.Idx) (e0 : (i 0).val = b * 5000 + (y 0).val) (e1 : (i 1).val = (y 1).val) :
    k0_pay2 (F := Ideal) v0 v1 v5 v8 y = val_main_v3 (F := Ideal) X0 X1 X2 X8 i := by
  obtain ⟨p, q, rfl⟩ : ∃ (p : Fin 5000) (q : Fin 128), y = ix2 p q := ⟨y 0, y 1, eq_ix2 y⟩
  obtain ⟨r, j, rfl⟩ : ∃ (r : Fin 50000) (j : Fin 128), i = ix2 r j := ⟨i 0, i 1, eq_ix2 i⟩
  obtain rfl : j = q := Fin.ext e1
  rw [layer1_apply, layer1_ref, h5, h8 (ix2 p (0 : Fin 1)) (ix2 r (0 : Fin 1)) e0 rfl]
  refine congrArg (· * X2 (ix2 r (0 : Fin 1))) (Finset.sum_congr rfl fun k _ => ?_)
  rw [h0 (ix2 p k) (ix2 r k) e0 rfl, h1 (ix2 p k) (ix2 r k) e0 rfl]

/-- The second layer, over an aggregated array `A` that is the reference's first aggregation: block entry
    `(p, j)` is array entry `(b · 5000 + p, j)`. -/
theorem layer2_block (x0 x1 : (⟨S50000x64, .f32⟩ : BufTy).Contents (Elt Ideal)) (x2 : (⟨S50000x1, .f32⟩ : BufTy).Contents (Elt Ideal)) (x4 x5 : (⟨S800000, .i32⟩ : BufTy).Contents (Elt Ideal))
    (x8 : (⟨S64x128, .f32⟩ : BufTy).Contents (Elt Ideal)) (x9 : (⟨S128, .f32⟩ : BufTy).Contents (Elt Ideal)) (x10 : (⟨S128x64, .f32⟩ : BufTy).Contents (Elt Ideal))
    (v0 : Vec Ideal S5000x128 .f32) (v2 : Vec Ideal S5000x1 .f32) (v5 : Vec Ideal S128 .f32) (v12 : Vec Ideal S128x64 .f32) (b : ℕ)
    (h0 : ∀ (y : S5000x128.Idx) (i : S50000x128.Idx), (i 0).val = b * 5000 + (y 0).val → (i 1).val = (y 1).val → v0 y = val_main_v13 (F := Ideal) x0 x1 x2 x4 x5 x8 i)
    (h2 : ∀ (y : S5000x1.Idx) (i : S50000x1.Idx), (i 0).val = b * 5000 + (y 0).val → (i 1).val = (y 1).val → v2 y = x2 i)
    (h5 : v5 = x9) (h12 : v12 = x10)
    (y : S5000x64.Idx) (i : S50000x64.Idx) (e0 : (i 0).val = b * 5000 + (y 0).val) (e1 : (i 1).val = (y 1).val) :
    k1_pay1 (F := Ideal) v0 v2 v5 v12 v2 y = val_main_v22 (F := Ideal) x0 x1 x2 x4 x5 x8 x9 x10 i := by
  obtain ⟨p, q, rfl⟩ : ∃ (p : Fin 5000) (q : Fin 64), y = ix2 p q := ⟨y 0, y 1, eq_ix2 y⟩
  obtain ⟨r, j, rfl⟩ : ∃ (r : Fin 50000) (j : Fin 64), i = ix2 r j := ⟨i 0, i 1, eq_ix2 i⟩
  obtain rfl : j = q := Fin.ext e1
  rw [layer2_apply, layer2_ref, h5, h12, h2 (ix2 p (0 : Fin 1)) (ix2 r (0 : Fin 1)) e0 rfl]
  refine congrArg (· * x2 (ix2 r (0 : Fin 1))) (Finset.sum_congr rfl fun k _ => ?_)
  rw [h0 (ix2 p k) (ix2 r k) e0 rfl]

/-- The skip branch, over a masked array `X` that is the reference's: block entry `(p, j)` is array entry
    `(b · 5000 + p, j)`. -/
theorem skip_block (x0 x1 : (⟨S50000x64, .f32⟩ : BufTy).Contents (Elt Ideal)) (x3 : (⟨S50000x1, .f32⟩ : BufTy).Contents (Elt Ideal)) (x12 : (⟨S64x64, .f32⟩ : BufTy).Contents (Elt Ideal))
    (v18 : Vec Ideal S5000x64 .f32) (v21 : Vec Ideal S64x64 .f32) (v24 : Vec Ideal S5000x1 .f32) (b : ℕ)
    (h18 : ∀ (y : S5000x64.Idx) (i : S50000x64.Idx), (i 0).val = b * 5000 + (y 0).val → (i 1).val = (y 1).val → v18 y = val_main_v0 (F := Ideal) x0 x1 i)
    (h21 : v21 = x12)
    (h24 : ∀ (y : S5000x1.Idx) (i : S50000x1.Idx), (i 0).val = b * 5000 + (y 0).val → (i 1).val = (y 1).val → v24 y = x3 i)
    (y : S5000x64.Idx) (i : S50000x64.Idx) (e0 : (i 0).val = b * 5000 + (y 0).val) (e1 : (i 1).val = (y 1).val) :
    k1_pay2 (F := Ideal) v18 v21 v24 y = val_main_v25 (F := Ideal) x0 x1 x3 x12 i := by
  obtain ⟨p, q, rfl⟩ : ∃ (p : Fin 5000) (q : Fin 64), y = ix2 p q := ⟨y 0, y 1, eq_ix2 y⟩
  obtain ⟨r, j, rfl⟩ : ∃ (r : Fin 50000) (j : Fin 64), i = ix2 r j := ⟨i 0, i 1, eq_ix2 i⟩
  obtain rfl : j = q := Fin.ext e1
  rw [skip_apply, skip_ref, h21, h24 (ix2 p (0 : Fin 1)) (ix2 r (0 : Fin 1)) e0 rfl]
  refine congrArg (· * x3 (ix2 r (0 : Fin 1))) (Finset.sum_congr rfl fun k _ => ?_)
  rw [h18 (ix2 p k) (ix2 r k) e0 rfl]
  rfl

/-- The output, over aggregated arrays that are the reference's two later aggregations: block entry `(p, j)` is
    array entry `(b · 5000 + p, j)`. -/
theorem output_block (x0 x1 : (⟨S50000x64, .f32⟩ : BufTy).Contents (Elt Ideal)) (x2 x3 : (⟨S50000x1, .f32⟩ : BufTy).Contents (Elt Ideal)) (x4 x5 x6 x7 : (⟨S800000, .i32⟩ : BufTy).Contents (Elt Ideal))
    (x8 : (⟨S64x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal))
    (v0 : Vec Ideal S5000x64 .f32) (v2 : Vec Ideal S5000x1 .f32) (v5 : Vec Ideal S64 .f32) (v9 : Vec Ideal S5000x64 .f32) (v11 : Vec Ideal S5000x1 .f32) (v14 : Vec Ideal S64 .f32) (b : ℕ)
    (h0 : ∀ (y : S5000x64.Idx) (i : S50000x64.Idx), (i 0).val = b * 5000 + (y 0).val → (i 1).val = (y 1).val → v0 y = val_main_v35 (F := Ideal) x0 x1 x2 x4 x5 x8 x9 x10 i)
    (h2 : ∀ (y : S5000x1.Idx) (i : S50000x1.Idx), (i 0).val = b * 5000 + (y 0).val → (i 1).val = (y 1).val → v2 y = x2 i)
    (h5 : v5 = x11)
    (h9 : ∀ (y : S5000x64.Idx) (i : S50000x64.Idx), (i 0).val = b * 5000 + (y 0).val → (i 1).val = (y 1).val → v9 y = val_main_v50 (F := Ideal) x0 x1 x3 x6 x7 x12 i)
    (h11 : ∀ (y : S5000x1.Idx) (i : S50000x1.Idx), (i 0).val = b * 5000 + (y 0).val → (i 1).val = (y 1).val → v11 y = x3 i)
    (h14 : v14 = x13)
    (y : S5000x64.Idx) (i : S50000x64.Idx) (e0 : (i 0).val = b * 5000 + (y 0).val) (e1 : (i 1).val = (y 1).val) :
    k2_pay1 (F := Ideal) v0 v2 v5 v9 v11 v14 y = val_main_v62 (F := Ideal) x0 x1 x2 x3 x4 x5 x6 x7 x8 x9 x10 x11 x12 x13 i := by
  obtain ⟨p, q, rfl⟩ : ∃ (p : Fin 5000) (q : Fin 64), y = ix2 p q := ⟨y 0, y 1, eq_ix2 y⟩
  obtain ⟨r, j, rfl⟩ : ∃ (r : Fin 50000) (j : Fin 64), i = ix2 r j := ⟨i 0, i 1, eq_ix2 i⟩
  obtain rfl : j = q := Fin.ext e1
  rw [output_apply, output_ref, h5, h14, h0 (ix2 p j) (ix2 r j) e0 rfl, h9 (ix2 p j) (ix2 r j) e0 rfl,
    h2 (ix2 p (0 : Fin 1)) (ix2 r (0 : Fin 1)) e0 rfl, h11 (ix2 p (0 : Fin 1)) (ix2 r (0 : Fin 1)) e0 rfl]

end Cert.KernelIdeal.Blocks

end
-- ==== Proof.StageA.lean ====
/-
  The first kernel region, read as whole arrays.

  The region runs the first kernel body at ten grid points; point `t` sees rows `t · 5000 …` of the features, the
  mask and the norm, the whole first weight matrix, and writes rows `t · 5000 …` of its two results. Whatever the
  buffers hold when the region is entered (`V`), after it the first result array is the masked features and the
  second the reference's first layer, both as functions of the arrays the region read: each point writes its block
  of that function, and the ten blocks tile the arrays.
-/
import proofs.«161620_j28681791603394_1_alg».proof.Proof.Gen.KernelIdeal.Frame
import proofs.«161620_j28681791603394_1_alg».proof.Proof.Blocks
import Idealize.ShloMosaic.Lib.Pipeline.Value

set_option maxRecDepth 16384

noncomputable section

namespace Cert.KernelIdeal.StageA

open Cert.KernelIdeal Cert.KernelIdeal.Gen Cert.KernelIdeal.Blocks
open Cert.ReferenceIdeal.Read (val_main_v0 val_main_v3 val_main_v13 val_main_v22 val_main_v25 val_main_v35 val_main_v50 val_main_v62)
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps, decided over the ten grid points: a row-blocked window's block index is the point's
    number on the row axis and zero on the column axis; a window over a whole array stays at block zero. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0 :=
  (by decide +kernel : ∀ t : Fin grid0.N, _)

/-! ## The input windows' blocks, read off their arrays -/

/-- Window 0's block at point `t` is rows `t · 5000 …` of its array. -/
theorem rows_0 (c : Dev nD) (t : Fin cfg0.N) (y : S5000x64.Idx) (i : S50000x64.Idx)
    (e0 : (i 0).val = t.val * 5000 + (y 0).val) (e1 : (i 1).val = (y 1).val) :
    iblk0 V c 0 t y = V c main_arg0 i := by
  obtain ⟨f0, f1, f2, f3, f4, f5, f6, f7, f8, f9, f10, f11⟩ := idx_facts t
  show V c main_arg0 (((cfg0.win 0).blk t).view.emb y) = V c main_arg0 i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 64 + 1 * (y 1).val = (i 1).val; omega

/-- Window 1's block at point `t` is rows `t · 5000 …` of its array. -/
theorem rows_1 (c : Dev nD) (t : Fin cfg0.N) (y : S5000x64.Idx) (i : S50000x64.Idx)
    (e0 : (i 0).val = t.val * 5000 + (y 0).val) (e1 : (i 1).val = (y 1).val) :
    iblk0 V c 1 t y = V c main_arg1 i := by
  obtain ⟨f0, f1, f2, f3, f4, f5, f6, f7, f8, f9, f10, f11⟩ := idx_facts t
  show V c main_arg1 (((cfg0.win 1).blk t).view.emb y) = V c main_arg1 i
  refine congrArg _ (funext fun a => Fin.ext ?_)
  match a with
  | ⟨0, _⟩ => show win0_1.index t (0 : Fin 2) * 5000 + 1 * (y 0).val = (i 0).val; omega
  | ⟨1, _⟩ => show win0_1.index t (1 : Fin 2) * 64 + 1 * (y 1).val = (i 1).val; omega

/-- Window 2's block at point `t` is rows `t · 5000 …` of its array. -/
theorem rows_2 (c : Dev nD) (t : Fin cfg0.N) (y : S5000x1.Idx) (i : S50000x1.Idx)
    (e0 : (i 0).val = t.val * 5000 + (y 0).val) (e1 : (i 1).val = (y 1).val) :
    iblk0 V c 2 t y = V c main_arg2 i := by
  obtain ⟨f0, f1, f2, f3, f4, f5, f6, f7, f8, f9, f10, f11⟩ := idx_facts t
  show V c main_arg2 (((cfg0.win 2).blk t).view.emb y) = V c main_arg2 i
  refine congrArg _ (funext fun a => Fin.ext ?_)
  match a with
  | ⟨0, _⟩ => show win0_2.index t (0 : Fin 2) * 5000 + 1 * (y 0).val = (i 0).val; omega
  | ⟨1, _⟩ => show win0_2.index t (1 : Fin 2) * 1 + 1 * (y 1).val = (i 1).val; omega

/-- Window 3's block at every point is its whole array. -/
theorem whole_3 (c : Dev nD) (t : Fin cfg0.N) : iblk0 V c 3 t = V c main_arg8 := by
  obtain ⟨f0, f1, f2, f3, f4, f5, f6, f7, f8, f9, f10, f11⟩ := idx_facts t
  funext y
  show V c main_arg8 (((cfg0.win 3).blk t).view.emb y) = V c main_arg8 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 128 + 1 * (y 1).val = (y 1).val; omega

/-! ## The output windows: what a point writes back, and the array after the region -/

/-- What point `t` writes back to window 4's array is block `t` of any array whose entries in that block are
    the body's entries. -/
theorem flushed_of_4 (c : Dev nD) (t : Fin cfg0.N) (G : S50000x64.Idx → Elt Ideal .f32)
    (hG : ∀ y : S5000x64.Idx, k0_pay1 (F := Ideal) (iblk0 V c 0 t) (iblk0 V c 1 t) y = G (((cfg0.win 4).blk t).view.emb y)) :
    (dat0 V c).flushed 4 t = ((cfg0.win 4).blk t).view.read (Elt Ideal) G := by
  show (cfg0.win 4).cut (grid0.coords t) ((dat0 V c).after 4 t) = _
  rw [after0_4]
  unfold out0_4
  rw [View.canon_unit_zero zero2]
  simp only [View.ld_unit_zero (S := S5000x64) zero2]
  funext y
  exact hG y

/-- What point `t` writes back to window 4's array is block `t` of the masked features. -/
theorem flushed_4 (c : Dev nD) (t : Fin cfg0.N) :
    (dat0 V c).flushed 4 t = ((cfg0.win 4).blk t).view.read (Elt Ideal) (val_main_v0 (F := Ideal) (V c main_arg0) (V c main_arg1)) :=
  flushed_of_4 V c t _ fun y => by
    obtain ⟨f0, f1, f2, f3, f4, f5, f6, f7, f8, f9, f10, f11⟩ := idx_facts t
    refine masked_block (V c main_arg0) (V c main_arg1) (iblk0 V c 0 t) (iblk0 V c 1 t) t.val (rows_0 V c t) (rows_1 V c t) y _ ?_ ?_
    · show win0_4.index t (0 : Fin 2) * 5000 + 1 * (y 0).val = t.val * 5000 + (y 0).val; omega
    · show win0_4.index t (1 : Fin 2) * 64 + 1 * (y 1).val = (y 1).val; omega

/-- An index of the array is in point `t`'s block iff each coordinate is in the block's range on its axis. -/
theorem mem_blk_4 (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v0_0).slice (win0_4.rect t)).set ↔ _
  rw [View.set_slice_whole, Rect.mem_set_unit]
  exact Iff.rfl

/-- The ten blocks of 5000 rows tile the array: row `r` is in the block of point `r / 5000`. -/
theorem cover_4 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN : (i 0).val / 5000 < cfg0.N := Nat.lt_of_lt_of_eq (by omega : (i 0).val / 5000 < 10) N_0.symm
  refine ⟨⟨(i 0).val / 5000, hN⟩, flush0_4 _, ?_⟩
  obtain ⟨f0, f1, f2, f3, f4, f5, f6, f7, f8, f9, f10, f11⟩ := idx_facts ⟨(i 0).val / 5000, hN⟩
  rw [mem_blk_4]
  intro a
  match a with
  | ⟨0, _⟩ => show win0_4.index ⟨(i 0).val / 5000, hN⟩ (0 : Fin 2) * 5000 ≤ (i 0).val ∧ (i 0).val < win0_4.index ⟨(i 0).val / 5000, hN⟩ (0 : Fin 2) * 5000 + 5000; rw [f8]; show (i 0).val / 5000 * 5000 ≤ (i 0).val ∧ (i 0).val < (i 0).val / 5000 * 5000 + 5000; omega
  | ⟨1, _⟩ => show win0_4.index ⟨(i 0).val / 5000, hN⟩ (1 : Fin 2) * 64 ≤ (i 1).val ∧ (i 1).val < win0_4.index ⟨(i 0).val / 5000, hN⟩ (1 : Fin 2) * 64 + 64; rw [f9]; omega

/-- After the region, window 4's array is the masked features. -/
theorem final_4 (c : Dev nD) : (dat0 V c).arrAt 4 cfg0.N = val_main_v0 (F := Ideal) (V c main_arg0) (V c main_arg1) :=
  (dat0 V c).arrAt_eq_of_cover 4 _ (fun t _ => flushed_4 V c t ) cover_4

/-- What point `t` writes back to window 5's array is block `t` of any array whose entries in that block are
    the body's entries. -/
theorem flushed_of_5 (c : Dev nD) (t : Fin cfg0.N) (G : S50000x128.Idx → Elt Ideal .f32)
    (hG : ∀ y : S5000x128.Idx, k0_pay2 (F := Ideal) (iblk0 V c 0 t) (iblk0 V c 1 t) (iblk0 V c 3 t) (iblk0 V c 2 t) y = G (((cfg0.win 5).blk t).view.emb y)) :
    (dat0 V c).flushed 5 t = ((cfg0.win 5).blk t).view.read (Elt Ideal) G := by
  show (cfg0.win 5).cut (grid0.coords t) ((dat0 V c).after 5 t) = _
  rw [after0_5]
  unfold out0_5
  rw [View.canon_unit_zero zero2]
  simp only [View.ld_unit_zero (S := S5000x64) zero2, View.ld_unit_zero (S := S64x128) zero2, View.ld_unit_zero (S := S5000x1) zero2]
  funext y
  exact hG y

/-- What point `t` writes back to window 5's array is block `t` of the first layer. -/
theorem flushed_5 (c : Dev nD) (t : Fin cfg0.N) :
    (dat0 V c).flushed 5 t = ((cfg0.win 5).blk t).view.read (Elt Ideal) (val_main_v3 (F := Ideal) (V c main_arg0) (V c main_arg1) (V c main_arg2) (V c main_arg8)) :=
  flushed_of_5 V c t _ fun y => by
    obtain ⟨f0, f1, f2, f3, f4, f5, f6, f7, f8, f9, f10, f11⟩ := idx_facts t
    refine layer1_block (V c main_arg0) (V c main_arg1) (V c main_arg2) (V c main_arg8) (iblk0 V c 0 t) (iblk0 V c 1 t) (iblk0 V c 3 t) (iblk0 V c 2 t) t.val (rows_0 V c t) (rows_1 V c t) (whole_3 V c t) (rows_2 V c t) y _ ?_ ?_
    · show win0_5.index t (0 : Fin 2) * 5000 + 1 * (y 0).val = t.val * 5000 + (y 0).val; omega
    · show win0_5.index t (1 : Fin 2) * 128 + 1 * (y 1).val = (y 1).val; omega

/-- An index of the array is in point `t`'s block iff each coordinate is in the block's range on its axis. -/
theorem mem_blk_5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v0_1).slice (win0_5.rect t)).set ↔ _
  rw [View.set_slice_whole, Rect.mem_set_unit]
  exact Iff.rfl

/-- The ten blocks of 5000 rows tile the array: row `r` is in the block of point `r / 5000`. -/
theorem cover_5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 5000 < cfg0.N := Nat.lt_of_lt_of_eq (by omega : (i 0).val / 5000 < 10) N_0.symm
  refine ⟨⟨(i 0).val / 5000, hN⟩, flush0_5 _, ?_⟩
  obtain ⟨f0, f1, f2, f3, f4, f5, f6, f7, f8, f9, f10, f11⟩ := idx_facts ⟨(i 0).val / 5000, hN⟩
  rw [mem_blk_5]
  intro a
  match a with
  | ⟨0, _⟩ => show win0_5.index ⟨(i 0).val / 5000, hN⟩ (0 : Fin 2) * 5000 ≤ (i 0).val ∧ (i 0).val < win0_5.index ⟨(i 0).val / 5000, hN⟩ (0 : Fin 2) * 5000 + 5000; rw [f10]; show (i 0).val / 5000 * 5000 ≤ (i 0).val ∧ (i 0).val < (i 0).val / 5000 * 5000 + 5000; omega
  | ⟨1, _⟩ => show win0_5.index ⟨(i 0).val / 5000, hN⟩ (1 : Fin 2) * 128 ≤ (i 1).val ∧ (i 1).val < win0_5.index ⟨(i 0).val / 5000, hN⟩ (1 : Fin 2) * 128 + 128; rw [f11]; omega

/-- After the region, window 5's array is the first layer. -/
theorem final_5 (c : Dev nD) : (dat0 V c).arrAt 5 cfg0.N = val_main_v3 (F := Ideal) (V c main_arg0) (V c main_arg1) (V c main_arg2) (V c main_arg8) :=
  (dat0 V c).arrAt_eq_of_cover 5 _ (fun t _ => flushed_5 V c t ) cover_5

end Cert.KernelIdeal.StageA

end
-- ==== Proof.StageB.lean ====
/-
  The second kernel region, read as whole arrays.

  Point `t` of the region sees rows `t · 5000 …` of the first aggregation, of the masked features and of the two
  norms, the whole bias and the two whole weight matrices, and writes rows `t · 5000 …` of its two results. If the
  region is entered with the first aggregation and the masked features at the reference's values, it leaves the
  reference's second layer in its first result array and the reference's skip branch in its second: each point
  writes its block of those arrays, and the ten blocks tile them.
-/
import proofs.«161620_j28681791603394_1_alg».proof.Proof.Gen.KernelIdeal.Frame
import proofs.«161620_j28681791603394_1_alg».proof.Proof.Blocks
import Idealize.ShloMosaic.Lib.Pipeline.Value

set_option maxRecDepth 16384

noncomputable section

namespace Cert.KernelIdeal.StageB

open Cert.KernelIdeal Cert.KernelIdeal.Gen Cert.KernelIdeal.Blocks
open Cert.ReferenceIdeal.Read (val_main_v0 val_main_v3 val_main_v13 val_main_v22 val_main_v25 val_main_v35 val_main_v50 val_main_v62)
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps, decided over the ten grid points: a row-blocked window's block index is the point's
    number on the row axis and zero on the column axis; a window over a whole array stays at block zero. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0
    ∧ win1_8.index t (0 : Fin 2) = t.val
    ∧ win1_8.index t (1 : Fin 2) = 0 :=
  (by decide +kernel : ∀ t : Fin grid1.N, _)

/-! ## The input windows' blocks, read off their arrays -/

/-- Window 0's block at point `t` is rows `t · 5000 …` of its array. -/
theorem rows_0 (c : Dev nD) (t : Fin cfg1.N) (y : S5000x128.Idx) (i : S50000x128.Idx)
    (e0 : (i 0).val = t.val * 5000 + (y 0).val) (e1 : (i 1).val = (y 1).val) :
    iblk1 V c 0 t y = V c main_v10 i := by
  obtain ⟨f0, f1, f2, f3, f4, f5, f6, f7, f8, f9, f10, f11, f12, f13, f14, f15, f16⟩ := idx_facts t
  show V c main_v10 (((cfg1.win 0).blk t).view.emb y) = V c main_v10 i
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- Window 1's block at point `t` is rows `t · 5000 …` of its array. -/
theorem rows_1 (c : Dev nD) (t : Fin cfg1.N) (y : S5000x64.Idx) (i : S50000x64.Idx)
    (e0 : (i 0).val = t.val * 5000 + (y 0).val) (e1 : (i 1).val = (y 1).val) :
    iblk1 V c 1 t y = V c main_v0_0 i := by
  obtain ⟨f0, f1, f2, f3, f4, f5, f6, f7, f8, f9, f10, f11, f12, f13, f14, f15, f16⟩ := idx_facts t
  show V c main_v0_0 (((cfg1.win 1).blk t).view.emb y) = V c main_v0_0 i
  refine congrArg _ (funext fun a => Fin.ext ?_)
  match a with
  | ⟨0, _⟩ => show win1_1.index t (0 : Fin 2) * 5000 + 1 * (y 0).val = (i 0).val; omega
  | ⟨1, _⟩ => show win1_1.index t (1 : Fin 2) * 64 + 1 * (y 1).val = (i 1).val; omega

/-- Window 2's block at point `t` is rows `t · 5000 …` of its array. -/
theorem rows_2 (c : Dev nD) (t : Fin cfg1.N) (y : S5000x1.Idx) (i : S50000x1.Idx)
    (e0 : (i 0).val = t.val * 5000 + (y 0).val) (e1 : (i 1).val = (y 1).val) :
    iblk1 V c 2 t y = V c main_arg2 i := by
  obtain ⟨f0, f1, f2, f3, f4, f5, f6, f7, f8, f9, f10, f11, f12, f13, f14, f15, f16⟩ := idx_facts t
  show V c main_arg2 (((cfg1.win 2).blk t).view.emb y) = V c main_arg2 i
  refine congrArg _ (funext fun a => Fin.ext ?_)
  match a with
  | ⟨0, _⟩ => show win1_2.index t (0 : Fin 2) * 5000 + 1 * (y 0).val = (i 0).val; omega
  | ⟨1, _⟩ => show win1_2.index t (1 : Fin 2) * 1 + 1 * (y 1).val = (i 1).val; omega

/-- Window 3's block at point `t` is rows `t · 5000 …` of its array. -/
theorem rows_3 (c : Dev nD) (t : Fin cfg1.N) (y : S5000x1.Idx) (i : S50000x1.Idx)
    (e0 : (i 0).val = t.val * 5000 + (y 0).val) (e1 : (i 1).val = (y 1).val) :
    iblk1 V c 3 t y = V c main_arg3 i := by
  obtain ⟨f0, f1, f2, f3, f4, f5, f6, f7, f8, f9, f10, f11, f12, f13, f14, f15, f16⟩ := idx_facts t
  show V c main_arg3 (((cfg1.win 3).blk t).view.emb y) = V c main_arg3 i
  refine congrArg _ (funext fun a => Fin.ext ?_)
  match a with
  | ⟨0, _⟩ => show win1_3.index t (0 : Fin 2) * 5000 + 1 * (y 0).val = (i 0).val; omega
  | ⟨1, _⟩ => show win1_3.index t (1 : Fin 2) * 1 + 1 * (y 1).val = (i 1).val; omega

/-- Window 4's block at every point is its whole array. -/
theorem whole_4 (c : Dev nD) (t : Fin cfg1.N) : iblk1 V c 4 t = V c main_arg9 := by
  obtain ⟨f0, f1, f2, f3, f4, f5, f6, f7, f8, f9, f10, f11, f12, f13, f14, f15, f16⟩ := idx_facts t
  funext y
  show V c main_arg9 (((cfg1.win 4).blk t).view.emb y) = V c main_arg9 y
  refine congrArg _ (funext fun a => Fin.ext ?_)
  match a with
  | ⟨0, _⟩ => show win1_4.index t (0 : Fin 1) * 128 + 1 * (y 0).val = (y 0).val; omega

/-- Window 5's block at every point is its whole array. -/
theorem whole_5 (c : Dev nD) (t : Fin cfg1.N) : iblk1 V c 5 t = V c main_arg10 := by
  obtain ⟨f0, f1, f2, f3, f4, f5, f6, f7, f8, f9, f10, f11, f12, f13, f14, f15, f16⟩ := idx_facts t
  funext y
  show V c main_arg10 (((cfg1.win 5).blk t).view.emb y) = V c main_arg10 y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 64 + 1 * (y 1).val = (y 1).val; omega

/-- Window 6's block at every point is its whole array. -/
theorem whole_6 (c : Dev nD) (t : Fin cfg1.N) : iblk1 V c 6 t = V c main_arg12 := by
  obtain ⟨f0, f1, f2, f3, f4, f5, f6, f7, f8, f9, f10, f11, f12, f13, f14, f15, f16⟩ := idx_facts t
  funext y
  show V c main_arg12 (((cfg1.win 6).blk t).view.emb y) = V c main_arg12 y
  refine congrArg _ (funext fun a => Fin.ext ?_)
  match a with
  | ⟨0, _⟩ => show win1_6.index t (0 : Fin 2) * 64 + 1 * (y 0).val = (y 0).val; omega
  | ⟨1, _⟩ => show win1_6.index t (1 : Fin 2) * 64 + 1 * (y 1).val = (y 1).val; omega

/-! ## The output windows: what a point writes back, and the array after the region -/

/-- What point `t` writes back to window 7's array is block `t` of any array whose entries in that block are
    the body's entries. -/
theorem flushed_of_7 (c : Dev nD) (t : Fin cfg1.N) (G : S50000x64.Idx → Elt Ideal .f32)
    (hG : ∀ y : S5000x64.Idx, k1_pay1 (F := Ideal) (iblk1 V c 0 t) (iblk1 V c 2 t) (iblk1 V c 4 t) (iblk1 V c 5 t) (iblk1 V c 2 t) y = G (((cfg1.win 7).blk t).view.emb y)) :
    (dat1 V c).flushed 7 t = ((cfg1.win 7).blk t).view.read (Elt Ideal) G := by
  show (cfg1.win 7).cut (grid1.coords t) ((dat1 V c).after 7 t) = _
  rw [after1_7]
  unfold out1_7
  rw [View.canon_unit_zero zero2]
  simp only [View.ld_unit_zero (S := S5000x128) zero2, View.ld_unit_zero (S := S5000x1) zero2, View.ld_unit_zero (S := S128) zero1, View.ld_unit_zero (S := S128x64) zero2]
  funext y
  exact hG y

/-- What point `t` writes back to window 7's array is block `t` of the second layer. -/
theorem flushed_7 (c : Dev nD) (t : Fin cfg1.N) (x0 x1 : (⟨S50000x64, .f32⟩ : BufTy).Contents (Elt Ideal)) (x2 : (⟨S50000x1, .f32⟩ : BufTy).Contents (Elt Ideal)) (x4 x5 : (⟨S800000, .i32⟩ : BufTy).Contents (Elt Ideal))
    (x8 : (⟨S64x128, .f32⟩ : BufTy).Contents (Elt Ideal)) (x9 : (⟨S128, .f32⟩ : BufTy).Contents (Elt Ideal)) (x10 : (⟨S128x64, .f32⟩ : BufTy).Contents (Elt Ideal))
    (H10 : V c main_v10 = val_main_v13 (F := Ideal) x0 x1 x2 x4 x5 x8) (H2 : V c main_arg2 = x2) (H9 : V c main_arg9 = x9) (H10w : V c main_arg10 = x10) :
    (dat1 V c).flushed 7 t = ((cfg1.win 7).blk t).view.read (Elt Ideal) (val_main_v22 (F := Ideal) x0 x1 x2 x4 x5 x8 x9 x10) :=
  flushed_of_7 V c t _ fun y => by
    obtain ⟨f0, f1, f2, f3, f4, f5, f6, f7, f8, f9, f10, f11, f12, f13, f14, f15, f16⟩ := idx_facts t
    refine layer2_block x0 x1 x2 x4 x5 x8 x9 x10 (iblk1 V c 0 t) (iblk1 V c 2 t) (iblk1 V c 4 t) (iblk1 V c 5 t) t.val (fun y i e0 e1 => (rows_0 V c t y i e0 e1).trans (congrFun H10 i)) (fun y i e0 e1 => (rows_2 V c t y i e0 e1).trans (congrFun H2 i)) ((whole_4 V c t).trans H9) ((whole_5 V c t).trans H10w) y _ ?_ ?_
    · show win1_7.index t (0 : Fin 2) * 5000 + 1 * (y 0).val = t.val * 5000 + (y 0).val; omega
    · show win1_7.index t (1 : Fin 2) * 64 + 1 * (y 1).val = (y 1).val; omega

/-- An index of the array is in point `t`'s block iff each coordinate is in the block's range on its axis. -/
theorem mem_blk_7 (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v11_0).slice (win1_7.rect t)).set ↔ _
  rw [View.set_slice_whole, Rect.mem_set_unit]
  exact Iff.rfl

/-- The ten blocks of 5000 rows tile the array: row `r` is in the block of point `r / 5000`. -/
theorem cover_7 (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : (i 0).val / 5000 < cfg1.N := Nat.lt_of_lt_of_eq (by omega : (i 0).val / 5000 < 10) N_1.symm
  refine ⟨⟨(i 0).val / 5000, hN⟩, flush1_7 _, ?_⟩
  obtain ⟨f0, f1, f2, f3, f4, f5, f6, f7, f8, f9, f10, f11, f12, f13, f14, f15, f16⟩ := idx_facts ⟨(i 0).val / 5000, hN⟩
  rw [mem_blk_7]
  intro a
  match a with
  | ⟨0, _⟩ => show win1_7.index ⟨(i 0).val / 5000, hN⟩ (0 : Fin 2) * 5000 ≤ (i 0).val ∧ (i 0).val < win1_7.index ⟨(i 0).val / 5000, hN⟩ (0 : Fin 2) * 5000 + 5000; rw [f13]; show (i 0).val / 5000 * 5000 ≤ (i 0).val ∧ (i 0).val < (i 0).val / 5000 * 5000 + 5000; omega
  | ⟨1, _⟩ => show win1_7.index ⟨(i 0).val / 5000, hN⟩ (1 : Fin 2) * 64 ≤ (i 1).val ∧ (i 1).val < win1_7.index ⟨(i 0).val / 5000, hN⟩ (1 : Fin 2) * 64 + 64; rw [f14]; omega

/-- After the region, window 7's array is the second layer. -/
theorem final_7 (c : Dev nD) (x0 x1 : (⟨S50000x64, .f32⟩ : BufTy).Contents (Elt Ideal)) (x2 : (⟨S50000x1, .f32⟩ : BufTy).Contents (Elt Ideal)) (x4 x5 : (⟨S800000, .i32⟩ : BufTy).Contents (Elt Ideal))
    (x8 : (⟨S64x128, .f32⟩ : BufTy).Contents (Elt Ideal)) (x9 : (⟨S128, .f32⟩ : BufTy).Contents (Elt Ideal)) (x10 : (⟨S128x64, .f32⟩ : BufTy).Contents (Elt Ideal))
    (H10 : V c main_v10 = val_main_v13 (F := Ideal) x0 x1 x2 x4 x5 x8) (H2 : V c main_arg2 = x2) (H9 : V c main_arg9 = x9) (H10w : V c main_arg10 = x10) : (dat1 V c).arrAt 7 cfg1.N = val_main_v22 (F := Ideal) x0 x1 x2 x4 x5 x8 x9 x10 :=
  (dat1 V c).arrAt_eq_of_cover 7 _ (fun t _ => flushed_7 V c t x0 x1 x2 x4 x5 x8 x9 x10 H10 H2 H9 H10w) cover_7

/-- What point `t` writes back to window 8's array is block `t` of any array whose entries in that block are
    the body's entries. -/
theorem flushed_of_8 (c : Dev nD) (t : Fin cfg1.N) (G : S50000x64.Idx → Elt Ideal .f32)
    (hG : ∀ y : S5000x64.Idx, k1_pay2 (F := Ideal) (iblk1 V c 1 t) (iblk1 V c 6 t) (iblk1 V c 3 t) y = G (((cfg1.win 8).blk t).view.emb y)) :
    (dat1 V c).flushed 8 t = ((cfg1.win 8).blk t).view.read (Elt Ideal) G := by
  show (cfg1.win 8).cut (grid1.coords t) ((dat1 V c).after 8 t) = _
  rw [after1_8]
  unfold out1_8
  rw [View.canon_unit_zero zero2]
  simp only [View.ld_unit_zero (S := S5000x64) zero2, View.ld_unit_zero (S := S64x64) zero2, View.ld_unit_zero (S := S5000x1) zero2]
  funext y
  exact hG y

/-- What point `t` writes back to window 8's array is block `t` of the skip branch. -/
theorem flushed_8 (c : Dev nD) (t : Fin cfg1.N) (x0 x1 : (⟨S50000x64, .f32⟩ : BufTy).Contents (Elt Ideal)) (x3 : (⟨S50000x1, .f32⟩ : BufTy).Contents (Elt Ideal)) (x12 : (⟨S64x64, .f32⟩ : BufTy).Contents (Elt Ideal))
    (Hx : V c main_v0_0 = val_main_v0 (F := Ideal) x0 x1) (H3 : V c main_arg3 = x3) (H12 : V c main_arg12 = x12) :
    (dat1 V c).flushed 8 t = ((cfg1.win 8).blk t).view.read (Elt Ideal) (val_main_v25 (F := Ideal) x0 x1 x3 x12) :=
  flushed_of_8 V c t _ fun y => by
    obtain ⟨f0, f1, f2, f3, f4, f5, f6, f7, f8, f9, f10, f11, f12, f13, f14, f15, f16⟩ := idx_facts t
    refine skip_block x0 x1 x3 x12 (iblk1 V c 1 t) (iblk1 V c 6 t) (iblk1 V c 3 t) t.val (fun y i e0 e1 => (rows_1 V c t y i e0 e1).trans (congrFun Hx i)) ((whole_6 V c t).trans H12) (fun y i e0 e1 => (rows_3 V c t y i e0 e1).trans (congrFun H3 i)) y _ ?_ ?_
    · show win1_8.index t (0 : Fin 2) * 5000 + 1 * (y 0).val = t.val * 5000 + (y 0).val; omega
    · show win1_8.index t (1 : Fin 2) * 64 + 1 * (y 1).val = (y 1).val; omega

/-- An index of the array is in point `t`'s block iff each coordinate is in the block's range on its axis. -/
theorem mem_blk_8 (t : Fin cfg1.N) (i : S50000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v11_1).slice (win1_8.rect t)).set ↔ _
  rw [View.set_slice_whole, Rect.mem_set_unit]
  exact Iff.rfl

/-- The ten blocks of 5000 rows tile the array: row `r` is in the block of point `r / 5000`. -/
theorem cover_8 (i : S50000x64.Idx) :
    ∃ t : Fin cfg1.N, (cfg1.win 8).flush t = true ∧ i ∈ ((cfg1.win 8).blk t).view.set := by
  have hi0 : (i 0).val < 50000 := (i 0).isLt
  have hi1 : (i 1).val < 64 := (i 1).isLt
  have hN : (i 0).val / 5000 < cfg1.N := Nat.lt_of_lt_of_eq (by omega : (i 0).val / 5000 < 10) N_1.symm
  refine ⟨⟨(i 0).val / 5000, hN⟩, flush1_8 _, ?_⟩
  obtain ⟨f0, f1, f2, f3, f4, f5, f6, f7, f8, f9, f10, f11, f12, f13, f14, f15, f16⟩ := idx_facts ⟨(i 0).val / 5000, hN⟩
  rw [mem_blk_8]
  intro a
  match a with
  | ⟨0, _⟩ => show win1_8.index ⟨(i 0).val / 5000, hN⟩ (0 : Fin 2) * 5000 ≤ (i 0).val ∧ (i 0).val < win1_8.index ⟨(i 0).val / 5000, hN⟩ (0 : Fin 2) * 5000 + 5000; rw [f15]; show (i 0).val / 5000 * 5000 ≤ (i 0).val ∧ (i 0).val < (i 0).val / 5000 * 5000 + 5000; omega
  | ⟨1, _⟩ => show win1_8.index ⟨(i 0).val / 5000, hN⟩ (1 : Fin 2) * 64 ≤ (i 1).val ∧ (i 1).val < win1_8.index ⟨(i 0).val / 5000, hN⟩ (1 : Fin 2) * 64 + 64; rw [f16]; omega

/-- After the region, window 8's array is the skip branch. -/
theorem final_8 (c : Dev nD) (x0 x1 : (⟨S50000x64, .f32⟩ : BufTy).Contents (Elt Ideal)) (x3 : (⟨S50000x1, .f32⟩ : BufTy).Contents (Elt Ideal)) (x12 : (⟨S64x64, .f32⟩ : BufTy).Contents (Elt Ideal))
    (Hx : V c main_v0_0 = val_main_v0 (F := Ideal) x0 x1) (H3 : V c main_arg3 = x3) (H12 : V c main_arg12 = x12) : (dat1 V c).arrAt 8 cfg1.N = val_main_v25 (F := Ideal) x0 x1 x3 x12 :=
  (dat1 V c).arrAt_eq_of_cover 8 _ (fun t _ => flushed_8 V c t x0 x1 x3 x12 Hx H3 H12) cover_8

end Cert.KernelIdeal.StageB

end
-- ==== Proof.StageC.lean ====
/-
  The third kernel region, read as whole arrays.

  Point `t` of the region sees rows `t · 5000 …` of the two later aggregations and of the two norms, the two whole
  biases, and writes rows `t · 5000 …` of the result. If the region is entered with the two aggregations at the
  reference's values, it leaves the reference's result in its result array: each point writes its block of it, and
  the ten blocks tile it.
-/
import proofs.«161620_j28681791603394_1_alg».proof.Proof.Gen.KernelIdeal.Frame
import proofs.«161620_j28681791603394_1_alg».proof.Proof.Blocks
import Idealize.ShloMosaic.Lib.Pipeline.Value

set_option maxRecDepth 16384

noncomputable section

namespace Cert.KernelIdeal.StageC

open Cert.KernelIdeal Cert.KernelIdeal.Gen Cert.KernelIdeal.Blocks
open Cert.ReferenceIdeal.Read (val_main_v0 val_main_v3 val_main_v13 val_main_v22 val_main_v25 val_main_v35 val_main_v50 val_main_v62)
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps, decided over the ten grid points: a row-blocked window's block index is the point's
    number on the row axis and zero on the column axis; a window over a whole array stays at block zero. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0
    ∧ win2_4.index t (0 : Fin 1) = 0
    ∧ win2_5.index t (0 : Fin 1) = 0
    ∧ win2_6.index t (0 : Fin 2) = t.val
    ∧ win2_6.index t (1 : Fin 2) = 0 :=
  (by decide +kernel : ∀ t : Fin grid2.N, _)

/-! ## The input windows' blocks, read off their arrays -/

/-- Window 0's block at point `t` is rows `t · 5000 …` of its array. -/
theorem rows_0 (c : Dev nD) (t : Fin cfg2.N) (y : S5000x64.Idx) (i : S50000x64.Idx)
    (e0 : (i 0).val = t.val * 5000 + (y 0).val) (e1 : (i 1).val = (y 1).val) :
    iblk2 V c 0 t y = V c main_v21 i := by
  obtain ⟨f0, f1, f2, f3, f4, f5, f6, f7, f8, f9, f10, f11⟩ := idx_facts t
  show V c main_v21 (((cfg2.win 0).blk t).view.emb y) = V c main_v21 i
  refine congrArg _ (funext fun a => Fin.ext ?_)
  match a with
  | ⟨0, _⟩ => show win2_0.index t (0 : Fin 2) * 5000 + 1 * (y 0).val = (i 0).val; omega
  | ⟨1, _⟩ => show win2_0.index t (1 : Fin 2) * 64 + 1 * (y 1).val = (i 1).val; omega

/-- Window 1's block at point `t` is rows `t · 5000 …` of its array. -/
theorem rows_1 (c : Dev nD) (t : Fin cfg2.N) (y : S5000x64.Idx) (i : S50000x64.Idx)
    (e0 : (i 0).val = t.val * 5000 + (y 0).val) (e1 : (i 1).val = (y 1).val) :
    iblk2 V c 1 t y = V c main_v31 i := by
  obtain ⟨f0, f1, f2, f3, f4, f5, f6, f7, f8, f9, f10, f11⟩ := idx_facts t
  show V c main_v31 (((cfg2.win 1).blk t).view.emb y) = V c main_v31 i
  refine congrArg _ (funext fun a => Fin.ext ?_)
  match a with
  | ⟨0, _⟩ => show win2_1.index t (0 : Fin 2) * 5000 + 1 * (y 0).val = (i 0).val; omega
  | ⟨1, _⟩ => show win2_1.index t (1 : Fin 2) * 64 + 1 * (y 1).val = (i 1).val; omega

/-- Window 2's block at point `t` is rows `t · 5000 …` of its array. -/
theorem rows_2 (c : Dev nD) (t : Fin cfg2.N) (y : S5000x1.Idx) (i : S50000x1.Idx)
    (e0 : (i 0).val = t.val * 5000 + (y 0).val) (e1 : (i 1).val = (y 1).val) :
    iblk2 V c 2 t y = V c main_arg2 i := by
  obtain ⟨f0, f1, f2, f3, f4, f5, f6, f7, f8, f9, f10, f11⟩ := idx_facts t
  show V c main_arg2 (((cfg2.win 2).blk t).view.emb y) = V c main_arg2 i
  refine congrArg _ (funext fun a => Fin.ext ?_)
  match a with
  | ⟨0, _⟩ => show win2_2.index t (0 : Fin 2) * 5000 + 1 * (y 0).val = (i 0).val; omega
  | ⟨1, _⟩ => show win2_2.index t (1 : Fin 2) * 1 + 1 * (y 1).val = (i 1).val; omega

/-- Window 3's block at point `t` is rows `t · 5000 …` of its array. -/
theorem rows_3 (c : Dev nD) (t : Fin cfg2.N) (y : S5000x1.Idx) (i : S50000x1.Idx)
    (e0 : (i 0).val = t.val * 5000 + (y 0).val) (e1 : (i 1).val = (y 1).val) :
    iblk2 V c 3 t y = V c main_arg3 i := by
  obtain ⟨f0, f1, f2, f3, f4, f5, f6, f7, f8, f9, f10, f11⟩ := idx_facts t
  show V c main_arg3 (((cfg2.win 3).blk t).view.emb y) = V c main_arg3 i
  refine congrArg _ (funext fun a => Fin.ext ?_)
  match a with
  | ⟨0, _⟩ => show win2_3.index t (0 : Fin 2) * 5000 + 1 * (y 0).val = (i 0).val; omega
  | ⟨1, _⟩ => show win2_3.index t (1 : Fin 2) * 1 + 1 * (y 1).val = (i 1).val; omega

/-- Window 4's block at every point is its whole array. -/
theorem whole_4 (c : Dev nD) (t : Fin cfg2.N) : iblk2 V c 4 t = V c main_arg11 := by
  obtain ⟨f0, f1, f2, f3, f4, f5, f6, f7, f8, f9, f10, f11⟩ := idx_facts t
  funext y
  show V c main_arg11 (((cfg2.win 4).blk t).view.emb y) = V c main_arg11 y
  refine congrArg _ (funext fun a => Fin.ext ?_)
  match a with
  | ⟨0, _⟩ => show win2_4.index t (0 : Fin 1) * 64 + 1 * (y 0).val = (y 0).val; omega

/-- Window 5's block at every point is its whole array. -/
theorem whole_5 (c : Dev nD) (t : Fin cfg2.N) : iblk2 V c 5 t = V c main_arg13 := by
  obtain ⟨f0, f1, f2, f3, f4, f5, f6, f7, f8, f9, f10, f11⟩ := idx_facts t
  funext y
  show V c main_arg13 (((cfg2.win 5).blk t).view.emb y) = V c main_arg13 y
  refine congrArg _ (funext fun a => Fin.ext ?_)
  match a with
  | ⟨0, _⟩ => show win2_5.index t (0 : Fin 1) * 64 + 1 * (y 0).val = (y 0).val; omega

/-! ## The output windows: what a point writes back, and the array after the region -/

/-- What point `t` writes back to window 6's array is block `t` of any array whose entries in that block are
    the body's entries. -/
theorem flushed_of_6 (c : Dev nD) (t : Fin cfg2.N) (G : S50000x64.Idx → Elt Ideal .f32)
    (hG : ∀ y : S5000x64.Idx, k2_pay1 (F := Ideal) (iblk2 V c 0 t) (iblk2 V c 2 t) (iblk2 V c 4 t) (iblk2 V c 1 t) (iblk2 V c 3 t) (iblk2 V c 5 t) y = G (((cfg2.win 6).blk t).view.emb y)) :
    (dat2 V c).flushed 6 t = ((cfg2.win 6).blk t).view.read (Elt Ideal) G := by
  show (cfg2.win 6).cut (grid2.coords t) ((dat2 V c).after 6 t) = _
  rw [after2_6]
  unfold out2_6
  rw [View.canon_unit_zero zero2]
  simp only [View.ld_unit_zero (S := S5000x64) zero2, View.ld_unit_zero (S := S5000x1) zero2, View.ld_unit_zero (S := S64) zero1]
  funext y
  exact hG y

/-- What point `t` writes back to window 6's array is block `t` of the result. -/
theorem flushed_6 (c : Dev nD) (t : Fin cfg2.N) (x0 x1 : (⟨S50000x64, .f32⟩ : BufTy).Contents (Elt Ideal)) (x2 x3 : (⟨S50000x1, .f32⟩ : BufTy).Contents (Elt Ideal)) (x4 x5 x6 x7 : (⟨S800000, .i32⟩ : BufTy).Contents (Elt Ideal))
    (x8 : (⟨S64x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal))
    (H21 : V c main_v21 = val_main_v35 (F := Ideal) x0 x1 x2 x4 x5 x8 x9 x10) (H31 : V c main_v31 = val_main_v50 (F := Ideal) x0 x1 x3 x6 x7 x12)
    (H2 : V c main_arg2 = x2) (H3 : V c main_arg3 = x3) (H11 : V c main_arg11 = x11) (H13 : V c main_arg13 = x13) :
    (dat2 V c).flushed 6 t = ((cfg2.win 6).blk t).view.read (Elt Ideal) (val_main_v62 (F := Ideal) x0 x1 x2 x3 x4 x5 x6 x7 x8 x9 x10 x11 x12 x13) :=
  flushed_of_6 V c t _ fun y => by
    obtain ⟨f0, f1, f2, f3, f4, f5, f6, f7, f8, f9, f10, f11⟩ := idx_facts t
    refine output_block x0 x1 x2 x3 x4 x5 x6 x7 x8 x9 x10 x11 x12 x13 (iblk2 V c 0 t) (iblk2 V c 2 t) (iblk2 V c 4 t) (iblk2 V c 1 t) (iblk2 V c 3 t) (iblk2 V c 5 t) t.val (fun y i e0 e1 => (rows_0 V c t y i e0 e1).trans (congrFun H21 i)) (fun y i e0 e1 => (rows_2 V c t y i e0 e1).trans (congrFun H2 i)) ((whole_4 V c t).trans H11) (fun y i e0 e1 => (rows_1 V c t y i e0 e1).trans (congrFun H31 i)) (fun y i e0 e1 => (rows_3 V c t y i e0 e1).trans (congrFun H3 i)) ((whole_5 V c t).trans H13) y _ ?_ ?_
    · show win2_6.index t (0 : Fin 2) * 5000 + 1 * (y 0).val = t.val * 5000 + (y 0).val; omega
    · show win2_6.index t (1 : Fin 2) * 64 + 1 * (y 1).val = (y 1).val; omega

/-- An index of the array is in point `t`'s block iff each coordinate is in the block's range on its axis. -/
theorem mem_blk_6 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v32).slice (win2_6.rect t)).set ↔ _
  rw [View.set_slice_whole, Rect.mem_set_unit]
  exact Iff.rfl

/-- The ten blocks of 5000 rows tile the array: row `r` is in the block of point `r / 5000`. -/
theorem cover_6 (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  have hN : (i 0).val / 5000 < cfg2.N := Nat.lt_of_lt_of_eq (by omega : (i 0).val / 5000 < 10) N_2.symm
  refine ⟨⟨(i 0).val / 5000, hN⟩, flush2_6 _, ?_⟩
  obtain ⟨f0, f1, f2, f3, f4, f5, f6, f7, f8, f9, f10, f11⟩ := idx_facts ⟨(i 0).val / 5000, hN⟩
  rw [mem_blk_6]
  intro a
  match a with
  | ⟨0, _⟩ => show win2_6.index ⟨(i 0).val / 5000, hN⟩ (0 : Fin 2) * 5000 ≤ (i 0).val ∧ (i 0).val < win2_6.index ⟨(i 0).val / 5000, hN⟩ (0 : Fin 2) * 5000 + 5000; rw [f10]; show (i 0).val / 5000 * 5000 ≤ (i 0).val ∧ (i 0).val < (i 0).val / 5000 * 5000 + 5000; omega
  | ⟨1, _⟩ => show win2_6.index ⟨(i 0).val / 5000, hN⟩ (1 : Fin 2) * 64 ≤ (i 1).val ∧ (i 1).val < win2_6.index ⟨(i 0).val / 5000, hN⟩ (1 : Fin 2) * 64 + 64; rw [f11]; omega

/-- After the region, window 6's array is the result. -/
theorem final_6 (c : Dev nD) (x0 x1 : (⟨S50000x64, .f32⟩ : BufTy).Contents (Elt Ideal)) (x2 x3 : (⟨S50000x1, .f32⟩ : BufTy).Contents (Elt Ideal)) (x4 x5 x6 x7 : (⟨S800000, .i32⟩ : BufTy).Contents (Elt Ideal))
    (x8 : (⟨S64x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal))
    (H21 : V c main_v21 = val_main_v35 (F := Ideal) x0 x1 x2 x4 x5 x8 x9 x10) (H31 : V c main_v31 = val_main_v50 (F := Ideal) x0 x1 x3 x6 x7 x12)
    (H2 : V c main_arg2 = x2) (H3 : V c main_arg3 = x3) (H11 : V c main_arg11 = x11) (H13 : V c main_arg13 = x13) : (dat2 V c).arrAt 6 cfg2.N = val_main_v62 (F := Ideal) x0 x1 x2 x3 x4 x5 x6 x7 x8 x9 x10 x11 x12 x13 :=
  (dat2 V c).arrAt_eq_of_cover 6 _ (fun t _ => flushed_6 V c t x0 x1 x2 x3 x4 x5 x6 x7 x8 x9 x10 x11 x12 x13 H21 H31 H2 H3 H11 H13) cover_6

end Cert.KernelIdeal.StageC

end
-- ==== Proof.Chain.lean ====
/-
  The buffers at each boundary of the idealized kernel's run are the reference's stages.

  The run passes five segments: the first kernel region, a stretch of host operations (a gather of rows by the
  source indices followed by a scatter-add at the destination indices: the first aggregation), the second region,
  a second host stretch (the two later aggregations), and the third region. Following the generated fold of buffer
  contents through them (`Gen.W0 … Gen.W5`):
  * no segment writes an argument array, so each is still as launched wherever a later segment reads it;
  * after the first region the two result arrays hold the masked features and the first layer;
  * the first host stretch applies to them exactly the operations the reference applies, so the aggregated array is
    the reference's first aggregation (the two terms are the same operations of the same arrays: nothing is opened);
  * after the second region the two result arrays hold the second layer and the skip branch;
  * the second host stretch gives the reference's two later aggregations in the same way;
  * after the third region the result array holds the reference's result.
-/
import proofs.«161620_j28681791603394_1_alg».proof.Proof.StageA
import proofs.«161620_j28681791603394_1_alg».proof.Proof.StageB
import proofs.«161620_j28681791603394_1_alg».proof.Proof.StageC
import Idealize.ShloMosaic.Lib.StableHlo.Run

set_option maxRecDepth 16384

noncomputable section

namespace Cert.KernelIdeal.Chain

open Cert.KernelIdeal Cert.KernelIdeal.Gen
open Cert.ReferenceIdeal.Read (val_main_v0 val_main_v3 val_main_v13 val_main_v22 val_main_v25 val_main_v35 val_main_v50 val_main_v62)
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The argument arrays at each boundary where a later segment reads them -/

theorem W1_arg2 : W1 m ρ c (Proc.devRef .tc main_arg2) = m ((c : Thread nD τ).loc main_arg2) :=
  (W1_arr m ρ c 2).trans (((dat0 (V0 m ρ) c).arrAt_in 2 rfl _).trans (A_eq0 (V0 m ρ) c 2))
theorem W2_arg2 : W2 m ρ c (Proc.devRef .tc main_arg2) = m ((c : Thread nD τ).loc main_arg2) :=
  (StableHlo.after_of_forall_not_mem (b := Proc.devRef .tc main_arg2) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg2 m ρ c)
theorem W3_arg2 : W3 m ρ c (Proc.devRef .tc main_arg2) = m ((c : Thread nD τ).loc main_arg2) :=
  (W3_arr m ρ c 2).trans (((dat1 (V2 m ρ) c).arrAt_in 2 rfl _).trans ((A_eq1 (V2 m ρ) c 2).trans (W2_arg2 m ρ c)))
theorem W4_arg2 : W4 m ρ c (Proc.devRef .tc main_arg2) = m ((c : Thread nD τ).loc main_arg2) :=
  (StableHlo.after_of_forall_not_mem (b := Proc.devRef .tc main_arg2) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg2 m ρ c)

theorem W1_arg3 : W1 m ρ c (Proc.devRef .tc main_arg3) = m ((c : Thread nD τ).loc main_arg3) :=
  W1_of_ne m ρ c main_arg3 (by decide)
theorem W2_arg3 : W2 m ρ c (Proc.devRef .tc main_arg3) = m ((c : Thread nD τ).loc main_arg3) :=
  (StableHlo.after_of_forall_not_mem (b := Proc.devRef .tc main_arg3) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg3 m ρ c)
theorem W3_arg3 : W3 m ρ c (Proc.devRef .tc main_arg3) = m ((c : Thread nD τ).loc main_arg3) :=
  (W3_arr m ρ c 3).trans (((dat1 (V2 m ρ) c).arrAt_in 3 rfl _).trans ((A_eq1 (V2 m ρ) c 3).trans (W2_arg3 m ρ c)))
theorem W4_arg3 : W4 m ρ c (Proc.devRef .tc main_arg3) = m ((c : Thread nD τ).loc main_arg3) :=
  (StableHlo.after_of_forall_not_mem (b := Proc.devRef .tc main_arg3) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg3 m ρ c)

theorem W1_arg4 : W1 m ρ c (Proc.devRef .tc main_arg4) = m ((c : Thread nD τ).loc main_arg4) :=
  W1_of_ne m ρ c main_arg4 (by decide)
theorem W2_arg4 : W2 m ρ c (Proc.devRef .tc main_arg4) = m ((c : Thread nD τ).loc main_arg4) :=
  (StableHlo.after_of_forall_not_mem (b := Proc.devRef .tc main_arg4) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg4 m ρ c)
theorem W3_arg4 : W3 m ρ c (Proc.devRef .tc main_arg4) = m ((c : Thread nD τ).loc main_arg4) :=
  (W3_of_ne m ρ c main_arg4 (by decide)).trans (W2_arg4 m ρ c)

theorem W1_arg5 : W1 m ρ c (Proc.devRef .tc main_arg5) = m ((c : Thread nD τ).loc main_arg5) :=
  W1_of_ne m ρ c main_arg5 (by decide)
theorem W2_arg5 : W2 m ρ c (Proc.devRef .tc main_arg5) = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg5 m ρ c)
theorem W3_arg5 : W3 m ρ c (Proc.devRef .tc main_arg5) = m ((c : Thread nD τ).loc main_arg5) :=
  (W3_of_ne m ρ c main_arg5 (by decide)).trans (W2_arg5 m ρ c)

theorem W1_arg6 : W1 m ρ c (Proc.devRef .tc main_arg6) = m ((c : Thread nD τ).loc main_arg6) :=
  W1_of_ne m ρ c main_arg6 (by decide)
theorem W2_arg6 : W2 m ρ c (Proc.devRef .tc main_arg6) = m ((c : Thread nD τ).loc main_arg6) :=
  (StableHlo.after_of_forall_not_mem (b := Proc.devRef .tc main_arg6) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg6 m ρ c)
theorem W3_arg6 : W3 m ρ c (Proc.devRef .tc main_arg6) = m ((c : Thread nD τ).loc main_arg6) :=
  (W3_of_ne m ρ c main_arg6 (by decide)).trans (W2_arg6 m ρ c)

theorem W1_arg7 : W1 m ρ c (Proc.devRef .tc main_arg7) = m ((c : Thread nD τ).loc main_arg7) :=
  W1_of_ne m ρ c main_arg7 (by decide)
theorem W2_arg7 : W2 m ρ c (Proc.devRef .tc main_arg7) = m ((c : Thread nD τ).loc main_arg7) :=
  (StableHlo.after_of_forall_not_mem (b := Proc.devRef .tc main_arg7) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg7 m ρ c)
theorem W3_arg7 : W3 m ρ c (Proc.devRef .tc main_arg7) = m ((c : Thread nD τ).loc main_arg7) :=
  (W3_of_ne m ρ c main_arg7 (by decide)).trans (W2_arg7 m ρ c)

theorem W1_arg9 : W1 m ρ c (Proc.devRef .tc main_arg9) = m ((c : Thread nD τ).loc main_arg9) :=
  W1_of_ne m ρ c main_arg9 (by decide)
theorem W2_arg9 : W2 m ρ c (Proc.devRef .tc main_arg9) = m ((c : Thread nD τ).loc main_arg9) :=
  (StableHlo.after_of_forall_not_mem (b := Proc.devRef .tc main_arg9) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg9 m ρ c)

theorem W1_arg10 : W1 m ρ c (Proc.devRef .tc main_arg10) = m ((c : Thread nD τ).loc main_arg10) :=
  W1_of_ne m ρ c main_arg10 (by decide)
theorem W2_arg10 : W2 m ρ c (Proc.devRef .tc main_arg10) = m ((c : Thread nD τ).loc main_arg10) :=
  (StableHlo.after_of_forall_not_mem (b := Proc.devRef .tc main_arg10) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg10 m ρ c)

theorem W1_arg11 : W1 m ρ c (Proc.devRef .tc main_arg11) = m ((c : Thread nD τ).loc main_arg11) :=
  W1_of_ne m ρ c main_arg11 (by decide)
theorem W2_arg11 : W2 m ρ c (Proc.devRef .tc main_arg11) = m ((c : Thread nD τ).loc main_arg11) :=
  (StableHlo.after_of_forall_not_mem (b := Proc.devRef .tc main_arg11) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg11 m ρ c)
theorem W3_arg11 : W3 m ρ c (Proc.devRef .tc main_arg11) = m ((c : Thread nD τ).loc main_arg11) :=
  (W3_of_ne m ρ c main_arg11 (by decide)).trans (W2_arg11 m ρ c)
theorem W4_arg11 : W4 m ρ c (Proc.devRef .tc main_arg11) = m ((c : Thread nD τ).loc main_arg11) :=
  (StableHlo.after_of_forall_not_mem (b := Proc.devRef .tc main_arg11) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg11 m ρ c)

theorem W1_arg12 : W1 m ρ c (Proc.devRef .tc main_arg12) = m ((c : Thread nD τ).loc main_arg12) :=
  W1_of_ne m ρ c main_arg12 (by decide)
theorem W2_arg12 : W2 m ρ c (Proc.devRef .tc main_arg12) = m ((c : Thread nD τ).loc main_arg12) :=
  (StableHlo.after_of_forall_not_mem (b := Proc.devRef .tc main_arg12) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg12 m ρ c)

theorem W1_arg13 : W1 m ρ c (Proc.devRef .tc main_arg13) = m ((c : Thread nD τ).loc main_arg13) :=
  W1_of_ne m ρ c main_arg13 (by decide)
theorem W2_arg13 : W2 m ρ c (Proc.devRef .tc main_arg13) = m ((c : Thread nD τ).loc main_arg13) :=
  (StableHlo.after_of_forall_not_mem (b := Proc.devRef .tc main_arg13) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg13 m ρ c)
theorem W3_arg13 : W3 m ρ c (Proc.devRef .tc main_arg13) = m ((c : Thread nD τ).loc main_arg13) :=
  (W3_of_ne m ρ c main_arg13 (by decide)).trans (W2_arg13 m ρ c)
theorem W4_arg13 : W4 m ρ c (Proc.devRef .tc main_arg13) = m ((c : Thread nD τ).loc main_arg13) :=
  (StableHlo.after_of_forall_not_mem (b := Proc.devRef .tc main_arg13) _ _ (List.forall_iff_forall_mem.mp (by
      simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg13 m ρ c)

/-! ## After the first region -/

/-- The first region leaves the masked features in its first result array … -/
theorem W1_masked : W1 m ρ c (Proc.devRef .tc main_v0_0) = val_main_v0 (F := Ideal) (m ((c : Thread nD τ).loc main_arg0)) (m ((c : Thread nD τ).loc main_arg1)) :=
  (W1_arr m ρ c 4).trans (StageA.final_4 (V0 m ρ) c)

/-- … and the first layer in its second. -/
theorem W1_layer1 : W1 m ρ c (Proc.devRef .tc main_v0_1) = val_main_v3 (F := Ideal) (m ((c : Thread nD τ).loc main_arg0)) (m ((c : Thread nD τ).loc main_arg1)) (m ((c : Thread nD τ).loc main_arg2)) (m ((c : Thread nD τ).loc main_arg8)) :=
  (W1_arr m ρ c 5).trans (StageA.final_5 (V0 m ρ) c)

/-! ## After the first host stretch -/

/-- The host stretch does not write the masked features. -/
theorem W2_masked : W2 m ρ c (Proc.devRef .tc main_v0_0) = val_main_v0 (F := Ideal) (m ((c : Thread nD τ).loc main_arg0)) (m ((c : Thread nD τ).loc main_arg1)) :=
  (StableHlo.after_of_forall_not_mem (b := Proc.devRef .tc main_v0_0) _ _ (List.forall_iff_forall_mem.mp (by
      simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_masked m ρ c)

/-- The aggregated array is the reference's first aggregation: the same gather and scatter-add of the same arrays. -/
theorem W2_agg1 : W2 m ρ c (Proc.devRef .tc main_v10) = val_main_v13 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) := by
  show StableHlo.after hostOps1 (W1 m ρ c) (Proc.devRef .tc main_v10) = _
  after_results
  rw [W1_layer1, W1_arg4, W1_arg5]
  rfl

/-! ## After the second region -/

/-- The second region leaves the second layer in its first result array … -/
theorem W3_layer2 : W3 m ρ c (Proc.devRef .tc main_v11_0) = val_main_v22 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) :=
  (W3_arr m ρ c 7).trans (StageB.final_7 (V2 m ρ) c _ _ _ _ _ _ _ _ (W2_agg1 m ρ c) (W2_arg2 m ρ c) (W2_arg9 m ρ c) (W2_arg10 m ρ c))

/-- … and the skip branch in its second. -/
theorem W3_skip : W3 m ρ c (Proc.devRef .tc main_v11_1) = val_main_v25 (F := Ideal) (m ((c : Thread nD τ).loc main_arg0)) (m ((c : Thread nD τ).loc main_arg1)) (m ((c : Thread nD τ).loc main_arg3)) (m ((c : Thread nD τ).loc main_arg12)) :=
  (W3_arr m ρ c 8).trans (StageB.final_8 (V2 m ρ) c _ _ _ _ (W2_masked m ρ c) (W2_arg3 m ρ c) (W2_arg12 m ρ c))

/-! ## After the second host stretch -/

set_option maxHeartbeats 1600000 in
/-- The second aggregation is the reference's: the same gather and scatter-add of the same arrays. -/
theorem W4_agg2 : W4 m ρ c (Proc.devRef .tc main_v21) = val_main_v35 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) (m ((c : Thread nD τ).loc main_arg10)) := by
  show StableHlo.after hostOps2 (W3 m ρ c) (Proc.devRef .tc main_v21) = _
  after_results_simp
  rw [W3_layer2, W3_arg4, W3_arg5]
  rfl

set_option maxHeartbeats 1600000 in
/-- The third aggregation is the reference's. -/
theorem W4_agg3 : W4 m ρ c (Proc.devRef .tc main_v31) = val_main_v50 (F := Ideal) (m ((c : Thread nD τ).loc main_arg0)) (m ((c : Thread nD τ).loc main_arg1)) (m ((c : Thread nD τ).loc main_arg3)) (m ((c : Thread nD τ).loc main_arg6)) (m ((c : Thread nD τ).loc main_arg7)) (m ((c : Thread nD τ).loc main_arg12)) := by
  show StableHlo.after hostOps2 (W3 m ρ c) (Proc.devRef .tc main_v31) = _
  after_results_simp
  rw [W3_skip, W3_arg6, W3_arg7]
  rfl

/-! ## After the third region -/

/-- The result array after the run holds the reference's result, as a function of the argument arrays as launched. -/
theorem W5_result : W5 m ρ c (Proc.devRef .tc main_v32) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W5_arr m ρ c 6).trans (StageC.final_6 (V4 m ρ) c _ _ _ _ _ _ _ _ _ _ _ _ _ _ (W4_agg2 m ρ c) (W4_agg3 m ρ c)
    (W4_arg2 m ρ c) (W4_arg3 m ρ c) (W4_arg11 m ρ c) (W4_arg13 m ρ c))

end Cert.KernelIdeal.Chain

end
-- ==== Proof.lean ====
/-
  The certificate of a three-stage graph autoencoder with a skip branch: the kernel against its reference.

  Both programs compute, for node features `f`, a mask `mk`, two row norms `ng`, `nf`, two edge lists and
  weights `W1, b1, Wh, bh, Ws, bs`:
      x  = f · mk
      h  = relu (agg_g ((x W1) · ng) · ng + b1)
      hb = agg_g ((h Wh) · ng) · ng + bh
      sb = agg_f ((x Ws) · nf) · nf + bs
      result = logistic (hb + sb)
  where `agg` gathers rows at the edges' sources and adds them up at the edges' destinations. The kernel computes
  the dense parts in three kernel regions over blocks of 5000 rows, with matrix-unit products of operands narrowed
  to a shorter float format, and the aggregations between the regions by the same host operations the reference
  uses; the reference computes everything on whole arrays.

  At the exact values a change of float format is the identity and a product of matrices is the sum over the
  contracted index in any order, so every entry of every stage is the same expression in both programs; each stage
  of the kernel is computed a block of rows at a time, and a row of a stage depends on the same row of its
  row-blocked operands only. No law that needs finite entries is used: the precondition is never opened.

  The modules: `Rows` (a kernel body at one entry), `RefRows` (a reference stage at one entry), `Blocks` (a block
  of a kernel stage is those rows of the reference's stage), `StageA`, `StageB`, `StageC` (each region's result
  arrays as whole arrays), `KernelRun` (the kernel's run with every buffer after it named), `Chain` (the buffers
  at the five segment boundaries are the reference's stages). Here: the three frames, the idealization's
  conjunct (no operation was rewritten), and the equality of results.
-/
import proofs.«161620_j28681791603394_1_alg».proof.Defs
import proofs.«161620_j28681791603394_1_alg».proof.Proof.Gen.Kernel
import proofs.«161620_j28681791603394_1_alg».proof.Proof.Gen.Kernel.Skeleton
import proofs.«161620_j28681791603394_1_alg».proof.Proof.Gen.Kernel.Launch
import proofs.«161620_j28681791603394_1_alg».proof.Proof.Gen.Kernel.Points
import proofs.«161620_j28681791603394_1_alg».proof.Proof.Gen.Kernel.Frame
import proofs.«161620_j28681791603394_1_alg».proof.Proof.Gen.KernelIdeal
import proofs.«161620_j28681791603394_1_alg».proof.Proof.Gen.KernelIdeal.Skeleton
import proofs.«161620_j28681791603394_1_alg».proof.Proof.Gen.KernelIdeal.Launch
import proofs.«161620_j28681791603394_1_alg».proof.Proof.Gen.KernelIdeal.Points
import proofs.«161620_j28681791603394_1_alg».proof.Proof.Gen.KernelIdeal.Frame
import proofs.«161620_j28681791603394_1_alg».proof.Proof.Gen.ReferenceIdeal
import proofs.«161620_j28681791603394_1_alg».proof.Proof.Gen.ReferenceIdeal.Run
import proofs.«161620_j28681791603394_1_alg».proof.Proof.Gen.ReferenceIdeal.Read
import proofs.«161620_j28681791603394_1_alg».proof.Proof.Gen.Pre_finite_inputs
import proofs.«161620_j28681791603394_1_alg».proof.Proof.KernelRun
import proofs.«161620_j28681791603394_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the exact values both programs end with the reference's result stage of the argument arrays: the kernel by
    following its buffers through the five segments, the reference by its run; the arguments agree. -/
theorem algebraic : Cert.algebraic_KernelIdeal_ReferenceIdeal := by
  intro m ρ m' ρ' _ hagree
  refine ⟨fun c => Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Chain.W5_result m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v62_eq, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
